-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x3 : Shape := ⟨2, ![1000000, 3]⟩
abbrev S12x64 : Shape := ⟨2, ![12, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x64 : Shape := ⟨2, ![128, 64]⟩
abbrev S64x1 : Shape := ⟨2, ![64, 1]⟩
abbrev S1 : Shape := ⟨1, ![1]⟩
abbrev S1x16 : Shape := ⟨2, ![1, 16]⟩
abbrev S16 : Shape := ⟨1, ![16]⟩
abbrev S16x1 : Shape := ⟨2, ![16, 1]⟩
abbrev S_ : Shape := ⟨0, ![]⟩

class Facts : Prop where
  bcast_S_S1000000x3 : S_.BroadcastsInDim S1000000x3 (![] : Fin 0 → Fin S1000000x3.rank)
  reducesTo_S1000000x3_S_d0_1 : S1000000x3.ReducesTo [0, 1] S_
  h_S_ : 0 < S_.numel
  bcast_S_S12x64 : S_.BroadcastsInDim S12x64 (![] : Fin 0 → Fin S12x64.rank)
  reducesTo_S12x64_S_d0_1 : S12x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S1x16 : S_.BroadcastsInDim S1x16 (![] : Fin 0 → Fin S1x16.rank)
  reducesTo_S1x16_S_d0_1 : S1x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_

variable [Facts]

def fn_part4 {F : FTy → Type} [FloatOps F] (main_arg14 : FVec F S16 .f32) (main_arg15 : FVec F S16x1 .f32) (main_arg16 : FVec F S1 .f32) (main_v63 : IVec S_ 1) (main_v67 : IVec S_ 1) : IVec S_ 1 :=
  let main_v68 : IVec S_ 1 := andi main_v63 main_v67
  let main_v69 : FVec F S16 .f32 := Host.absf main_arg14
  let main_cst_26 : FVec F S_ .f32 := constant S_ .f32 0x7F800000#32
  let main_v70 : FVec F S16 .f32 := broadcastInDim S16 ![] bcast_S_S16 main_cst_26
  let main_v71 : IVec S16 1 := cmpf .olt main_v69 main_v70
  let main_c_27 : IVec S_ 1 := constantI S_ 1 1#1
  let main_v72 : IVec S_ 1 := (fun x v => Host.reduce IntOp.andi x v reducesTo_S16_S_d0 h_S_) main_v71 main_c_27
  let main_v73 : IVec S_ 1 := andi main_v68 main_v72
  let main_v74 : FVec F S16x1 .f32 := Host.absf main_arg15
  let main_cst_28 : FVec F S_ .f32 := constant S_ .f32 0x7F800000#32
  let main_v75 : FVec F S16x1 .f32 := broadcastInDim S16x1 ![] bcast_S_S16x1 main_cst_28
  let main_v76 : IVec S16x1 1 := cmpf .olt main_v74 main_v75
  let main_c_29 : IVec S_ 1 := constantI S_ 1 1#1
  let main_v77 : IVec S_ 1 := (fun x v => Host.reduce IntOp.andi x v reducesTo_S16x1_S_d0_1 h_S_) main_v76 main_c_29
  let main_v78 : IVec S_ 1 := andi main_v73 main_v77
  let main_v79 : FVec F S1 .f32 := Host.absf main_arg16
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg11 : FVec F S64x1 .f32) (main_arg12 : FVec F S1 .f32) (main_arg13 : FVec F S1x16 .f32) (main_arg14 : FVec F S16 .f32) (main_arg15 : FVec F S16x1 .f32) (main_arg16 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1 .f32 := Host.absf main_arg11
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S1x16 .f32 := Host.absf main_arg13
  let main_cst_24 : FVec F S_ .f32 := constant S_ .f32 0x7F800000#32
  let main_v65 : FVec F S1x16 .f32 := broadcastInDim S1x16 ![] bcast_S_S1x16 main_cst_24
  let main_v66 : IVec S1x16 1 := cmpf .olt main_v64 main_v65
  let main_c_25 : IVec S_ 1 := constantI S_ 1 1#1
  let main_v67 : IVec S_ 1 := (fun x v => Host.reduce IntOp.andi x v reducesTo_S1x16_S_d0_1 h_S_) main_v66 main_c_25
  fn_part4 (F := F) main_arg14 main_arg15 main_arg16 main_v63 main_v67

def fn_part2 {F : FTy → Type} [FloatOps F] (main_arg7 : FVec F S256x128 .f32) (main_arg8 : FVec F S128 .f32) (main_arg9 : FVec F S128x64 .f32) (main_arg10 : FVec F S64 .f32) (main_arg11 : FVec F S64x1 .f32) (main_arg12 : FVec F S1 .f32) (main_arg13 : FVec F S1x16 .f32) (main_arg14 : FVec F S16 .f32) (main_arg15 : FVec F S16x1 .f32) (main_arg16 : FVec F S1 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg9
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_arg16 main_v48 main_v49 main_v50

def fn_part1 {F : FTy → Type} [FloatOps F] (main_arg4 : FVec F S128 .f32) (main_arg5 : FVec F S128x256 .f32) (main_arg6 : FVec F S256 .f32) (main_arg7 : FVec F S256x128 .f32) (main_arg8 : FVec F S128 .f32) (main_arg9 : FVec F S128x64 .f32) (main_arg10 : FVec F S64 .f32) (main_arg11 : FVec F S64x1 .f32) (main_arg12 : FVec F S1 .f32) (main_arg13 : FVec F S1x16 .f32) (main_arg14 : FVec F S16 .f32) (main_arg15 : FVec F S16x1 .f32) (main_arg16 : FVec F S1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S1000000x3 .f32) (main_arg1 : FVec F S12x64 .f32) (main_arg2 : FVec F S64 .f32) (main_arg3 : FVec F S64x128 .f32) (main_arg4 : FVec F S128 .f32) (main_arg5 : FVec F S128x256 .f32) (main_arg6 : FVec F S256 .f32) (main_arg7 : FVec F S256x128 .f32) (main_arg8 : FVec F S128 .f32) (main_arg9 : FVec F S128x64 .f32) (main_arg10 : FVec F S64 .f32) (main_arg11 : FVec F S64x1 .f32) (main_arg12 : FVec F S1 .f32) (main_arg13 : FVec F S1x16 .f32) (main_arg14 : FVec F S16 .f32) (main_arg15 : FVec F S16x1 .f32) (main_arg16 : FVec F S1 .f32) : IVec S_ 1 :=
  let main_v0 : FVec F S1000000x3 .f32 := Host.absf main_arg0
  let main_cst : FVec F S_ .f32 := constant S_ .f32 0x7F800000#32
  let main_v1 : FVec F S1000000x3 .f32 := broadcastInDim S1000000x3 ![] bcast_S_S1000000x3 main_cst
  let main_v2 : IVec S1000000x3 1 := cmpf .olt main_v0 main_v1
  let main_c : IVec S_ 1 := constantI S_ 1 1#1
  let main_v3 : IVec S_ 1 := (fun x v => Host.reduce IntOp.andi x v reducesTo_S1000000x3_S_d0_1 h_S_) main_v2 main_c
  let main_v4 : FVec F S12x64 .f32 := Host.absf main_arg1
  let main_cst_0 : FVec F S_ .f32 := constant S_ .f32 0x7F800000#32
  let main_v5 : FVec F S12x64 .f32 := broadcastInDim S12x64 ![] bcast_S_S12x64 main_cst_0
  let main_v6 : IVec S12x64 1 := cmpf .olt main_v4 main_v5
  let main_c_1 : IVec S_ 1 := constantI S_ 1 1#1
  let main_v7 : IVec S_ 1 := (fun x v => Host.reduce IntOp.andi x v reducesTo_S12x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S1000000x3 : Shape := ⟨2, ![1000000, 3]⟩
abbrev S12x64 : Shape := ⟨2, ![12, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x64 : Shape := ⟨2, ![128, 64]⟩
abbrev S64x1 : Shape := ⟨2, ![64, 1]⟩
abbrev S1 : Shape := ⟨1, ![1]⟩
abbrev S1x16 : Shape := ⟨2, ![1, 16]⟩
abbrev S16 : Shape := ⟨1, ![16]⟩
abbrev S16x1 : Shape := ⟨2, ![16, 1]⟩
abbrev S_ : Shape := ⟨0, ![]⟩
abbrev S1007616x3 : Shape := ⟨2, ![1007616, 3]⟩
abbrev S1x1007616 : Shape := ⟨2, ![1, 1007616]⟩
abbrev S12288x3 : Shape := ⟨2, ![12288, 3]⟩
abbrev S1x12288 : Shape := ⟨2, ![1, 12288]⟩
abbrev S12288x1 : Shape := ⟨2, ![12288, 1]⟩
abbrev S12288x6 : Shape := ⟨2, ![12288, 6]⟩
abbrev S12288x12 : Shape := ⟨2, ![12288, 12]⟩
abbrev S12288x64 : Shape := ⟨2, ![12288, 64]⟩
abbrev S1x64 : Shape := ⟨2, ![1, 64]⟩
abbrev S12288x128 : Shape := ⟨2, ![12288, 128]⟩
abbrev S1x128 : Shape := ⟨2, ![1, 128]⟩
abbrev S12288x256 : Shape := ⟨2, ![12288, 256]⟩
abbrev S1x256 : Shape := ⟨2, ![1, 256]⟩
abbrev S1x1 : Shape := ⟨2, ![1, 1]⟩
abbrev S12288x16 : Shape := ⟨2, ![12288, 16]⟩
abbrev S12288 : Shape := ⟨1, ![12288]⟩
abbrev S1x1000000 : Shape := ⟨2, ![1, 1000000]⟩
abbrev S1000000x1 : Shape := ⟨2, ![1000000, 1]⟩

abbrev nBuf : Space → Nat
  | .hbm => 23
  | .vmem => 20
  | .smem => 0
  | _ => 0

abbrev bufTy : (tb : Table) → Fin (tcTables nBuf tb) → BufTy
  | .hbm, ⟨0, _⟩ => ⟨S1000000x3, .f32⟩
  | .hbm, ⟨1, _⟩ => ⟨S12x64, .f32⟩
  | .hbm, ⟨2, _⟩ => ⟨S64, .f32⟩
  | .hbm, ⟨3, _⟩ => ⟨S64x128, .f32⟩
  | .hbm, ⟨4, _⟩ => ⟨S128, .f32⟩
  | .hbm, ⟨5, _⟩ => ⟨S128x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S1x16, .f32⟩
  | .hbm, ⟨14, _⟩ => ⟨S16, .f32⟩
  | .hbm, ⟨15, _⟩ => ⟨S16x1, .f32⟩
  | .hbm, ⟨16, _⟩ => ⟨S1, .f32⟩
  | .hbm, ⟨17, _⟩ => ⟨S_, .i32⟩
  | .hbm, ⟨18, _⟩ => ⟨S_, .f32⟩
  | .hbm, ⟨19, _⟩ => ⟨S1007616x3, .f32⟩
  | .hbm, ⟨20, _⟩ => ⟨S1x1007616, .f32⟩
  | .hbm, ⟨21, _⟩ => ⟨S1x1000000, .f32⟩
  | .hbm, ⟨22, _⟩ => ⟨S1000000x1, .f32⟩
  | .local _ .vmem, ⟨0, _⟩ => ⟨S12288x3, .f32⟩
  | .local _ .vmem, ⟨1, _⟩ => ⟨S12288x3, .f32⟩
  | .local _ .vmem, ⟨2, _⟩ => ⟨S12x64, .f32⟩
  | .local _ .vmem, ⟨3, _⟩ => ⟨S64, .f32⟩
  | .local _ .vmem, ⟨4, _⟩ => ⟨S64x128, .f32⟩
  | .local _ .vmem, ⟨5, _⟩ => ⟨S128, .f32⟩
  | .local _ .vmem, ⟨6, _⟩ => ⟨S128x256, .f32⟩
  | .local _ .vmem, ⟨7, _⟩ => ⟨S256, .f32⟩
  | .local _ .vmem, ⟨8, _⟩ => ⟨S256x128, .f32⟩
  | .local _ .vmem, ⟨9, _⟩ => ⟨S128, .f32⟩
  | .local _ .vmem, ⟨10, _⟩ => ⟨S128x64, .f32⟩
  | .local _ .vmem, ⟨11, _⟩ => ⟨S64, .f32⟩
  | .local _ .vmem, ⟨12, _⟩ => ⟨S64x1, .f32⟩
  | .local _ .vmem, ⟨13, _⟩ => ⟨S1, .f32⟩
  | .local _ .vmem, ⟨14, _⟩ => ⟨S1x16, .f32⟩
  | .local _ .vmem, ⟨15, _⟩ => ⟨S16, .f32⟩
  | .local _ .vmem, ⟨16, _⟩ => ⟨S16x1, .f32⟩
  | .local _ .vmem, ⟨17, _⟩ => ⟨S1, .f32⟩
  | .local _ .vmem, ⟨18, _⟩ => ⟨S1x12288, .f32⟩
  | .local _ .vmem, ⟨19, _⟩ => ⟨S1x12288, .f32⟩
  | _, _ => ⟨S1000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_call0_v0 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19

abbrev nD : Nat := 1
abbrev τ : Topo := Topo.v7x

variable {F : FTy → Type} [FloatOps F]

abbrev grid0 : Pipeline.Grid := ⟨1, ![82], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S12288x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S16x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x12288 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  pads_S1000000x3_S1007616x3_076160_000 : S1000000x3.Pads (![0, 0] : Fin 2 → Nat) ![7616, 0] ![0, 0] S1007616x3
  h_S_ : 0 < S_.numel
  inb_S12288x3_S12288x3_0_0 : ∀ a, (![0, 0] : Fin 2 → Nat) a + S12288x3.size a ≤ S12288x3.size a
  h_S12288x3 : 0 < S12288x3.numel
  shapeCasts_S12288x3_S12288x3 : S12288x3.ShapeCasts S12288x3
  slices_S12288x3_o0_0_S12288x1 : S12288x3.Slices ![0, 0] S12288x1
  slices_S12288x3_o0_1_S12288x1 : S12288x3.Slices ![0, 1] S12288x1
  slices_S12288x3_o0_2_S12288x1 : S12288x3.Slices ![0, 2] S12288x1
  concatenates_S12288x1_S12288x1_S12288x1_S12288x1_S12288x1_S12288x1_S12288x6_d1 : Shape.Concatenates [S12288x1, S12288x1, S12288x1, S12288x1, S12288x1, S12288x1] S12288x6 1
  concatenates_S12288x6_S12288x6_S12288x12_d1 : Shape.Concatenates [S12288x6, S12288x6] S12288x12 1
  inb_S12x64_S12x64_0_0 : ∀ a, (![0, 0] : Fin 2 → Nat) a + S12x64.size a ≤ S12x64.size a
  h_S12x64 : 0 < S12x64.numel
  inb_S64_S64_0 : ∀ a, (![0] : Fin 1 → Nat) a + S64.size a ≤ S64.size a
  h_S64 : 0 < S64.numel
  shapeCasts_S64_S1x64 : S64.ShapeCasts S1x64
  broadcasts_S1x64_S12288x64 : S1x64.Broadcasts S12288x64
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S12288x128 : S1x128.Broadcasts S12288x128
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S12288x256 : S1x256.Broadcasts S12288x256
  inb_S256x128_S256x128_0_0 : ∀ a, (![0, 0] : Fin 2 → Nat) a + S256x128.size a ≤ S256x128.size a
  h_S256x128 : 0 < S256x128.numel
  inb_S128x64_S128x64_0_0 : ∀ a, (![0, 0] : Fin 2 → Nat) a + S128x64.size a ≤ S128x64.size a
  h_S128x64 : 0 < S128x64.numel
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S12288x1 : S1x1.Broadcasts S12288x1
  inb_S1x16_S1x16_0_0 : ∀ a, (![0, 0] : Fin 2 → Nat) a + S1x16.size a ≤ S1x16.size a
  h_S1x16 : 0 < S1x16.numel
  shapeCasts_S1x16_S16 : S1x16.ShapeCasts S16
  inb_S16_S16_0 : ∀ a, (![0] : Fin 1 → Nat) a + S16.size a ≤ S16.size a
  h_S16 : 0 < S16.numel
  shapeCasts_S16_S1x16 : S16.ShapeCasts S1x16
  broadcasts_S12288x1_S12288x16 : S12288x1.Broadcasts S12288x16
  broadcasts_S1x16_S12288x16 : S1x16.Broadcasts S12288x16
  inb_S16x1_S16x1_0_0 : ∀ a, (![0, 0] : Fin 2 → Nat) a + S16x1.size a ≤ S16x1.size a
  h_S16x1 : 0 < S16x1.numel
  shapeCasts_S16x1_S16 : S16x1.ShapeCasts S16
  reduces_S12288x16_S12288 : S12288x16.Reduces [1] S12288
  shapeCasts_S12288_S12288x1 : S12288.ShapeCasts S12288x1
  transposes_S12288x1_p1_0_S1x12288 : S12288x1.Transposes [1, 0] S1x12288
  inb_S1x12288_S1x12288_0_0 : ∀ a, (![0, 0] : Fin 2 → Nat) a + S1x12288.size a ≤ S1x12288.size a
  h_S1x12288 : 0 < S1x12288.numel
  slices_S1x1007616_S1x1000000_0_0 : S1x1007616.Slices ![0, 0] S1x1000000
  shapeCasts_S1x1000000_S1000000x1 : S1x1000000.ShapeCasts S1000000x1
  dot_S12288x12_S12x64_S12288x64_1_0_0_1_n_n_wf : DotDims.WF S12288x12 S12x64 S12288x64 [1] [0] [0] [1] [] []
  dot_S12288x64_S64x128_S12288x128_1_0_0_1_n_n_wf : DotDims.WF S12288x64 S64x128 S12288x128 [1] [0] [0] [1] [] []
  dot_S12288x128_S128x256_S12288x256_1_0_0_1_n_n_wf : DotDims.WF S12288x128 S128x256 S12288x256 [1] [0] [0] [1] [] []
  dot_S12288x256_S256x128_S12288x128_1_0_0_1_n_n_wf : DotDims.WF S12288x256 S256x128 S12288x128 [1] [0] [0] [1] [] []
  dot_S12288x128_S128x64_S12288x64_1_0_0_1_n_n_wf : DotDims.WF S12288x128 S128x64 S12288x64 [1] [0] [0] [1] [] []
  dot_S12288x64_S64x1_S12288x1_1_0_0_1_n_n_wf : DotDims.WF S12288x64 S64x1 S12288x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12288x3.size a ≤ S1007616x3.size a
  hwx0_0 : ∀ i : grid0.Coords, EltTy.bits .f32 = 32 ∨ (Rect.block (s := S1007616x3) S12288x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12x64.size a ≤ S12x64.size a
  hwx0_1 : ∀ i : grid0.Coords, EltTy.bits .f32 = 32 ∨ (Rect.block (s := S12x64) S12x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .f32 = 32 ∨ (Rect.block (s := S256x128) S256x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x64.size a ≤ S128x64.size a
  hwx0_9 : ∀ i : grid0.Coords, EltTy.bits .f32 = 32 ∨ (Rect.block (s := S128x64) S128x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64.size a ≤ S64.size a
  hwx0_10 : ∀ i : grid0.Coords, EltTy.bits .f32 = 32 ∨ (Rect.block (s := S64) S64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x1.size a ≤ S64x1.size a
  hwx0_11 : ∀ i : grid0.Coords, EltTy.bits .f32 = 32 ∨ (Rect.block (s := S64x1) S64x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1.size a ≤ S1.size a
  hwx0_12 : ∀ i : grid0.Coords, EltTy.bits .f32 = 32 ∨ (Rect.block (s := S1) S1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x16.size a ≤ S1x16.size a
  hwx0_13 : ∀ i : grid0.Coords, EltTy.bits .f32 = 32 ∨ (Rect.block (s := S1x16) S1x16.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S16.size a ≤ S16.size a
  hwx0_14 : ∀ i : grid0.Coords, EltTy.bits .f32 = 32 ∨ (Rect.block (s := S16) S16.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S16x1.size a ≤ S16x1.size a
  hwx0_15 : ∀ i : grid0.Coords, EltTy.bits .f32 = 32 ∨ (Rect.block (s := S16x1) S16x1.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1.size a ≤ S1.size a
  hwx0_16 : ∀ i : grid0.Coords, EltTy.bits .f32 = 32 ∨ (Rect.block (s := S1) S1.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1x12288.size a ≤ S1x1007616.size a
  hwx0_17 : ∀ i : grid0.Coords, EltTy.bits .f32 = 32 ∨ (Rect.block (s := S1x1007616) S1x12288.size (cc0_transform_17 i) (hinb0_17 i)).WholeWords (EltTy.packing .f32)

variable [Facts₀]

def dot_S12288x12_S12x64_S12288x64_1_0_0_1_n_n : DotDims S12288x12 S12x64 S12288x64 where
  lhsContracting := [1]
  rhsContracting := [0]
  lhsNonContracting := [0]
  rhsNonContracting := [1]
  lhsBatch := []
  rhsBatch := []
  wf := dot_S12288x12_S12x64_S12288x64_1_0_0_1_n_n_wf
def dot_S12288x64_S64x128_S12288x128_1_0_0_1_n_n : DotDims S12288x64 S64x128 S12288x128 where
  lhsContracting := [1]
  rhsContracting := [0]
  lhsNonContracting := [0]
  rhsNonContracting := [1]
  lhsBatch := []
  rhsBatch := []
  wf := dot_S12288x64_S64x128_S12288x128_1_0_0_1_n_n_wf
def dot_S12288x128_S128x256_S12288x256_1_0_0_1_n_n : DotDims S12288x128 S128x256 S12288x256 where
  lhsContracting := [1]
  rhsContracting := [0]
  lhsNonContracting := [0]
  rhsNonContracting := [1]
  lhsBatch := []
  rhsBatch := []
  wf := dot_S12288x128_S128x256_S12288x256_1_0_0_1_n_n_wf
def dot_S12288x256_S256x128_S12288x128_1_0_0_1_n_n : DotDims S12288x256 S256x128 S12288x128 where
  lhsContracting := [1]
  rhsContracting := [0]
  lhsNonContracting := [0]
  rhsNonContracting := [1]
  lhsBatch := []
  rhsBatch := []
  wf := dot_S12288x256_S256x128_S12288x128_1_0_0_1_n_n_wf
def dot_S12288x128_S128x64_S12288x64_1_0_0_1_n_n : DotDims S12288x128 S128x64 S12288x64 where
  lhsContracting := [1]
  rhsContracting := [0]
  lhsNonContracting := [0]
  rhsNonContracting := [1]
  lhsBatch := []
  rhsBatch := []
  wf := dot_S12288x128_S128x64_S12288x64_1_0_0_1_n_n_wf
def dot_S12288x64_S64x1_S12288x1_1_0_0_1_n_n : DotDims S12288x64 S64x1 S12288x1 where
  lhsContracting := [1]
  rhsContracting := [0]
  lhsNonContracting := [0]
  rhsNonContracting := [1]
  lhsBatch := []
  rhsBatch := []
  wf := dot_S12288x64_S64x1_S12288x1_1_0_0_1_n_n_wf

abbrev win0_0 : Pipeline.Window sig grid0 :=
  Pipeline.Window.ofSpec (Memref.whole main_v0) S12288x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S12x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S64x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S1x16.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S16.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S16x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v1) S1x12288.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S1000000x3 : Shape := ⟨2, ![1000000, 3]⟩
abbrev S12x64 : Shape := ⟨2, ![12, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x64 : Shape := ⟨2, ![128, 64]⟩
abbrev S64x1 : Shape := ⟨2, ![64, 1]⟩
abbrev S1 : Shape := ⟨1, ![1]⟩
abbrev S1x16 : Shape := ⟨2, ![1, 16]⟩
abbrev S16 : Shape := ⟨1, ![16]⟩
abbrev S16x1 : Shape := ⟨2, ![16, 1]⟩
abbrev S3 : Shape := ⟨1, ![3]⟩
abbrev S1000000x1 : Shape := ⟨2, ![1000000, 1]⟩
abbrev S_ : Shape := ⟨0, ![]⟩
abbrev S1x3 : Shape := ⟨2, ![1, 3]⟩
abbrev S1000000x6 : Shape := ⟨2, ![1000000, 6]⟩
abbrev S1000000x12 : Shape := ⟨2, ![1000000, 12]⟩
abbrev S1000000x64 : Shape := ⟨2, ![1000000, 64]⟩
abbrev S1x64 : Shape := ⟨2, ![1, 64]⟩
abbrev S1000000x128 : Shape := ⟨2, ![1000000, 128]⟩
abbrev S1x128 : Shape := ⟨2, ![1, 128]⟩
abbrev S1000000x256 : Shape := ⟨2, ![1000000, 256]⟩
abbrev S1x256 : Shape := ⟨2, ![1, 256]⟩
abbrev S1x1 : Shape := ⟨2, ![1, 1]⟩
abbrev S1000000x16 : Shape := ⟨2, ![1000000, 16]⟩

abbrev nBuf : Space → Nat
  | .hbm => 101
  | .vmem => 0
  | .smem => 0
  | _ => 0

abbrev bufTy : (tb : Table) → Fin (tcTables nBuf tb) → BufTy
  | .hbm, ⟨0, _⟩ => ⟨S1000000x3, .f32⟩
  | .hbm, ⟨1, _⟩ => ⟨S12x64, .f32⟩
  | .hbm, ⟨2, _⟩ => ⟨S64, .f32⟩
  | .hbm, ⟨3, _⟩ => ⟨S64x128, .f32⟩
  | .hbm, ⟨4, _⟩ => ⟨S128, .f32⟩
  | .hbm, ⟨5, _⟩ => ⟨S128x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S1x16, .f32⟩
  | .hbm, ⟨14, _⟩ => ⟨S16, .f32⟩
  | .hbm, ⟨15, _⟩ => ⟨S16x1, .f32⟩
  | .hbm, ⟨16, _⟩ => ⟨S1, .f32⟩
  | .hbm, ⟨17, _⟩ => ⟨S3, .f32⟩
  | .hbm, ⟨18, _⟩ => ⟨S1000000x1, .f32⟩
  | .hbm, ⟨19, _⟩ => ⟨S_, .f32⟩
  | .hbm, ⟨20, _⟩ => ⟨S1000000x1, .f32⟩
  | .hbm, ⟨21, _⟩ => ⟨S1000000x1, .f32⟩
  | .hbm, ⟨22, _⟩ => ⟨S1x3, .f32⟩
  | .hbm, ⟨23, _⟩ => ⟨S1000000x3, .f32⟩
  | .hbm, ⟨24, _⟩ => ⟨S1000000x3, .f32⟩
  | .hbm, ⟨25, _⟩ => ⟨S1000000x3, .f32⟩
  | .hbm, ⟨26, _⟩ => ⟨S1000000x3, .f32⟩
  | .hbm, ⟨27, _⟩ => ⟨S1000000x3, .f32⟩
  | .hbm, ⟨28, _⟩ => ⟨S1000000x6, .f32⟩
  | .hbm, ⟨29, _⟩ => ⟨S1000000x1, .f32⟩
  | .hbm, ⟨30, _⟩ => ⟨S_, .f32⟩
  | .hbm, ⟨31, _⟩ => ⟨S1000000x1, .f32⟩
  | .hbm, ⟨32, _⟩ => ⟨S1000000x1, .f32⟩
  | .hbm, ⟨33, _⟩ => ⟨S1x3, .f32⟩
  | .hbm, ⟨34, _⟩ => ⟨S1000000x3, .f32⟩
  | .hbm, ⟨35, _⟩ => ⟨S1000000x3, .f32⟩
  | .hbm, ⟨36, _⟩ => ⟨S1000000x3, .f32⟩
  | .hbm, ⟨37, _⟩ => ⟨S1000000x3, .f32⟩
  | .hbm, ⟨38, _⟩ => ⟨S1000000x3, .f32⟩
  | .hbm, ⟨39, _⟩ => ⟨S1000000x6, .f32⟩
  | .hbm, ⟨40, _⟩ => ⟨S1000000x1, .f32⟩
  | .hbm, ⟨41, _⟩ => ⟨S1000000x12, .f32⟩
  | .hbm, ⟨42, _⟩ => ⟨S1000000x64, .f32⟩
  | .hbm, ⟨43, _⟩ => ⟨S1x64, .f32⟩
  | .hbm, ⟨44, _⟩ => ⟨S1000000x64, .f32⟩
  | .hbm, ⟨45, _⟩ => ⟨S1000000x64, .f32⟩
  | .hbm, ⟨46, _⟩ => ⟨S_, .f32⟩
  | .hbm, ⟨47, _⟩ => ⟨S1000000x64, .f32⟩
  | .hbm, ⟨48, _⟩ => ⟨S1000000x64, .f32⟩
  | .hbm, ⟨49, _⟩ => ⟨S1000000x64, .f32⟩
  | .hbm, ⟨50, _⟩ => ⟨S1000000x128, .f32⟩
  | .hbm, ⟨51, _⟩ => ⟨S1x128, .f32⟩
  | .hbm, ⟨52, _⟩ => ⟨S1000000x128, .f32⟩
  | .hbm, ⟨53, _⟩ => ⟨S1000000x128, .f32⟩
  | .hbm, ⟨54, _⟩ => ⟨S_, .f32⟩
  | .hbm, ⟨55, _⟩ => ⟨S1000000x128, .f32⟩
  | .hbm, ⟨56, _⟩ => ⟨S1000000x128, .f32⟩
  | .hbm, ⟨57, _⟩ => ⟨S1000000x128, .f32⟩
  | .hbm, ⟨58, _⟩ => ⟨S1000000x128, .f32⟩
  | .hbm, ⟨59, _⟩ => ⟨S1000000x256, .f32⟩
  | .hbm, ⟨60, _⟩ => ⟨S1x256, .f32⟩
  | .hbm, ⟨61, _⟩ => ⟨S1000000x256, .f32⟩
  | .hbm, ⟨62, _⟩ => ⟨S1000000x256, .f32⟩
  | .hbm, ⟨63, _⟩ => ⟨S_, .f32⟩
  | .hbm, ⟨64, _⟩ => ⟨S1000000x256, .f32⟩
  | .hbm, ⟨65, _⟩ => ⟨S1000000x256, .f32⟩
  | .hbm, ⟨66, _⟩ => ⟨S1000000x256, .f32⟩
  | .hbm, ⟨67, _⟩ => ⟨S1000000x128, .f32⟩
  | .hbm, ⟨68, _⟩ => ⟨S1x128, .f32⟩
  | .hbm, ⟨69, _⟩ => ⟨S1000000x128, .f32⟩
  | .hbm, ⟨70, _⟩ => ⟨S1000000x128, .f32⟩
  | .hbm, ⟨71, _⟩ => ⟨S_, .f32⟩
  | .hbm, ⟨72, _⟩ => ⟨S1000000x128, .f32⟩
  | .hbm, ⟨73, _⟩ => ⟨S1000000x128, .f32⟩
  | .hbm, ⟨74, _⟩ => ⟨S1000000x128, .f32⟩
  | .hbm, ⟨75, _⟩ => ⟨S1000000x128, .f32⟩
  | .hbm, ⟨76, _⟩ => ⟨S1000000x64, .f32⟩
  | .hbm, ⟨77, _⟩ => ⟨S1x64, .f32⟩
  | .hbm, ⟨78, _⟩ => ⟨S1000000x64, .f32⟩
  | .hbm, ⟨79, _⟩ => ⟨S1000000x64, .f32⟩
  | .hbm, ⟨80, _⟩ => ⟨S_, .f32⟩
  | .hbm, ⟨81, _⟩ => ⟨S1000000x64, .f32⟩
  | .hbm, ⟨82, _⟩ => ⟨S1000000x64, .f32⟩
  | .hbm, ⟨83, _⟩ => ⟨S1000000x64, .f32⟩
  | .hbm, ⟨84, _⟩ => ⟨S1000000x1, .f32⟩
  | .hbm, ⟨85, _⟩ => ⟨S1x1, .f32⟩
  | .hbm, ⟨86, _⟩ => ⟨S1000000x1, .f32⟩
  | .hbm, ⟨87, _⟩ => ⟨S1000000x1, .f32⟩
  | .hbm, ⟨88, _⟩ => ⟨S1000000x16, .f32⟩
  | .hbm, ⟨89, _⟩ => ⟨S1x16, .f32⟩
  | .hbm, ⟨90, _⟩ => ⟨S1000000x16, .f32⟩
  | .hbm, ⟨91, _⟩ => ⟨S1000000x16, .f32⟩
  | .hbm, ⟨92, _⟩ => ⟨S_, .f32⟩
  | .hbm, ⟨93, _⟩ => ⟨S1000000x16, .f32⟩
  | .hbm, ⟨94, _⟩ => ⟨S1000000x16, .f32⟩
  | .hbm, ⟨95, _⟩ => ⟨S1000000x16, .f32⟩
  | .hbm, ⟨96, _⟩ => ⟨S1000000x1, .f32⟩
  | .hbm, ⟨97, _⟩ => ⟨S1x1, .f32⟩
  | .hbm, ⟨98, _⟩ => ⟨S1000000x1, .f32⟩
  | .hbm, ⟨99, _⟩ => ⟨S1000000x1, .f32⟩
  | .hbm, ⟨100, _⟩ => ⟨S1000000x1, .f32⟩
  | _, _ => ⟨S1000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_2 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_3 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_4 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_5 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_6 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_7 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩

abbrev nD : Nat := 1
abbrev τ : Topo := Topo.v7x

variable {F : FTy → Type} [FloatOps F]

class Facts₀ : Prop where
  slices_S1000000x3_S1000000x1_0_0 : S1000000x3.Slices ![0, 0] S1000000x1
  bcast_S_S1000000x1 : S_.BroadcastsInDim S1000000x1 (![] : Fin 0 → Fin S1000000x1.rank)
  bcast_S3_S1x3_1 : S3.BroadcastsInDim S1x3 (![1] : Fin 1 → Fin S1x3.rank)
  bcast_S1000000x1_S1000000x3_0_1 : S1000000x1.BroadcastsInDim S1000000x3 (![0, 1] : Fin 2 → Fin S1000000x3.rank)
  bcast_S1x3_S1000000x3_0_1 : S1x3.BroadcastsInDim S1000000x3 (![0, 1] : Fin 2 → Fin S1000000x3.rank)
  concatenates_S1000000x3_S1000000x3_S1000000x6_d1 : Shape.Concatenates [S1000000x3, S1000000x3] S1000000x6 1
  slices_S1000000x3_S1000000x1_0_1 : S1000000x3.Slices ![0, 1] S1000000x1
  slices_S1000000x3_S1000000x1_0_2 : S1000000x3.Slices ![0, 2] S1000000x1
  concatenates_S1000000x6_S1000000x6_S1000000x12_d1 : Shape.Concatenates [S1000000x6, S1000000x6] S1000000x12 1
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  bcast_S256_S1x256_1 : S256.BroadcastsInDim S1x256 (![1] : Fin 1 → Fin S1x256.rank)
  bcast_S1x256_S1000000x256_0_1 : S1x256.BroadcastsInDim S1000000x256 (![0, 1] : Fin 2 → Fin S1000000x256.rank)
  bcast_S_S1000000x256 : S_.BroadcastsInDim S1000000x256 (![] : Fin 0 → Fin S1000000x256.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  bcast_S16_S1x16_1 : S16.BroadcastsInDim S1x16 (![1] : Fin 1 → Fin S1x16.rank)
  bcast_S1x16_S1000000x16_0_1 : S1x16.BroadcastsInDim S1000000x16 (![0, 1] : Fin 2 → Fin S1000000x16.rank)
  bcast_S_S1000000x16 : S_.BroadcastsInDim S1000000x16 (![] : Fin 0 → Fin S1000000x16.rank)
  dot_S1000000x12_S12x64_S1000000x64_1_0_0_1_n_n_wf : DotDims.WF S1000000x12 S12x64 S1000000x64 [1] [0] [0] [1] [] []
  dot_S1000000x64_S64x128_S1000000x128_1_0_0_1_n_n_wf : DotDims.WF S1000000x64 S64x128 S1000000x128 [1] [0] [0] [1] [] []
  dot_S1000000x128_S128x256_S1000000x256_1_0_0_1_n_n_wf : DotDims.WF S1000000x128 S128x256 S1000000x256 [1] [0] [0] [1] [] []
  dot_S1000000x256_S256x128_S1000000x128_1_0_0_1_n_n_wf : DotDims.WF S1000000x256 S256x128 S1000000x128 [1] [0] [0] [1] [] []
  dot_S1000000x128_S128x64_S1000000x64_1_0_0_1_n_n_wf : DotDims.WF S1000000x128 S128x64 S1000000x64 [1] [0] [0] [1] [] []
  dot_S1000000x64_S64x1_S1000000x1_1_0_0_1_n_n_wf : DotDims.WF S1000000x64 S64x1 S1000000x1 [1] [0] [0] [1] [] []
  dot_S1000000x1_S1x16_S1000000x16_1_0_0_1_n_n_wf : DotDims.WF S1000000x1 S1x16 S1000000x16 [1] [0] [0] [1] [] []
  dot_S1000000x16_S16x1_S1000000x1_1_0_0_1_n_n_wf : DotDims.WF S1000000x16 S16x1 S1000000x1 [1] [0] [0] [1] [] []

variable [Facts₀]

def dot_S1000000x12_S12x64_S1000000x64_1_0_0_1_n_n : DotDims S1000000x12 S12x64 S1000000x64 where
  lhsContracting := [1]
  rhsContracting := [0]
  lhsNonContracting := [0]
  rhsNonContracting := [1]
  lhsBatch := []
  rhsBatch := []
  wf := dot_S1000000x12_S12x64_S1000000x64_1_0_0_1_n_n_wf
def dot_S1000000x64_S64x128_S1000000x128_1_0_0_1_n_n : DotDims S1000000x64 S64x128 S1000000x128 where
  lhsContracting := [1]
  rhsContracting := [0]
  lhsNonContracting := [0]
  rhsNonContracting := [1]
  lhsBatch := []
  rhsBatch := []
  wf := dot_S1000000x64_S64x128_S1000000x128_1_0_0_1_n_n_wf
def dot_S1000000x128_S128x256_S1000000x256_1_0_0_1_n_n : DotDims S1000000x128 S128x256 S1000000x256 where
  lhsContracting := [1]
  rhsContracting := [0]
  lhsNonContracting := [0]
  rhsNonContracting := [1]
  lhsBatch := []
  rhsBatch := []
  wf := dot_S1000000x128_S128x256_S1000000x256_1_0_0_1_n_n_wf
def dot_S1000000x256_S256x128_S1000000x128_1_0_0_1_n_n : DotDims S1000000x256 S256x128 S1000000x128 where
  lhsContracting := [1]
  rhsContracting := [0]
  lhsNonContracting := [0]
  rhsNonContracting := [1]
  lhsBatch := []
  rhsBatch := []
  wf := dot_S1000000x256_S256x128_S1000000x128_1_0_0_1_n_n_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf
def dot_S1000000x64_S64x1_S1000000x1_1_0_0_1_n_n : DotDims S1000000x64 S64x1 S1000000x1 where
  lhsContracting := [1]
  rhsContracting := [0]
  lhsNonContracting := [0]
  rhsNonContracting := [1]
  lhsBatch := []
  rhsBatch := []
  wf := dot_S1000000x64_S64x1_S1000000x1_1_0_0_1_n_n_wf
def dot_S1000000x1_S1x16_S1000000x16_1_0_0_1_n_n : DotDims S1000000x1 S1x16 S1000000x16 where
  lhsContracting := [1]
  rhsContracting := [0]
  lhsNonContracting := [0]
  rhsNonContracting := [1]
  lhsBatch := []
  rhsBatch := []
  wf := dot_S1000000x1_S1x16_S1000000x16_1_0_0_1_n_n_wf
def dot_S1000000x16_S16x1_S1000000x1_1_0_0_1_n_n : DotDims S1000000x16 S16x1 S1000000x1 where
  lhsContracting := [1]
  rhsContracting := [0]
  lhsNonContracting := [0]
  rhsNonContracting := [1]
  lhsBatch := []
  rhsBatch := []
  wf := dot_S1000000x16_S16x1_S1000000x1_1_0_0_1_n_n_wf

class Facts : Prop extends Facts₀ where

variable [Facts]
-- ==== Proof.Spec.lean ====
/-
  The function both programs compute, one row at a time.

  A row of the input is three extended reals (x, y, t).  The first two are embedded as twelve features —
  for each of x and y the sines and then the cosines of (π·s)·f for the frequencies f = 1, 2, 4 —, sent through
  five dense layers z ↦ ±sin (π·(z·W + b)) of widths 64, 128, 256, 128, 64 (the second and fourth negated)
  and a last linear layer of width 1.  The third goes through a 16-wide layer sin (π·(t·Wt1 + bt1)) and a linear
  layer of width 1.  The row's result is the product of the two scalars.  π is the f32 word nearest to it, read
  exactly; every operation is the exact one on the extended reals.
-/
import Idealize.ShloMosaic.PureOps.Ideal.Laws
import Idealize.ShloMosaic.Lib.ValueIdx

noncomputable section

namespace Cert.Wave

open Idealize.ShloMosaic Idealize.ShloMosaic.ValueIdx

/-- The f32 word nearest to π, as the exact dyadic it denotes. -/
def piE : EReal := Ideal.ofBits .f32 0x40490FDB#32

/-- The f32 words of the frequencies 1, 2, 4. -/
def frW : Fin 3 → BitVec 32 := ![0x3F800000#32, 0x40000000#32, 0x40800000#32]

/-- The three frequencies. -/
def fr (q : Fin 3) : EReal := Ideal.ofBits .f32 (frW q)

/-- The angle (π·s)·f_q. -/
def ang (s : EReal) (q : Fin 3) : EReal := (piE * s) * fr q

/-- The six features of one scalar: sines of the three angles, then their cosines. -/
def emb6 (s : EReal) (j : Fin 6) : EReal :=
  if h : j.val < 3 then Ideal.sin (ang s ⟨j.val, h⟩) else Ideal.cos (ang s ⟨j.val - 3, by omega⟩)

/-- The twelve features of a row: the six of x, then the six of y. -/
def emb12 (x : Fin 3 → EReal) (j : Fin 12) : EReal :=
  if h : j.val < 6 then emb6 (x 0) ⟨j.val, h⟩ else emb6 (x 1) ⟨j.val - 6, by omega⟩

/-- One linear layer on a row: (h·W + b) at output q. -/
def lin {K N : ℕ} (h : Fin K → EReal) (W : (⟨2, ![K, N]⟩ : Shape).Idx → EReal) (b : (⟨1, ![N]⟩ : Shape).Idx → EReal)
    (q : Fin N) : EReal :=
  (∑ k : Fin K, h k * W (ix2 k q)) + b (ix1 q)

/-- The activation sin (π·z). -/
def act (z : EReal) : EReal := Ideal.sin (piE * z)

/-- The weights and biases. -/
structure Params where
  W1 : (⟨2, ![12, 64]⟩ : Shape).Idx → EReal
  b1 : (⟨1, ![64]⟩ : Shape).Idx → EReal
  W2 : (⟨2, ![64, 128]⟩ : Shape).Idx → EReal
  b2 : (⟨1, ![128]⟩ : Shape).Idx → EReal
  W3 : (⟨2, ![128, 256]⟩ : Shape).Idx → EReal
  b3 : (⟨1, ![256]⟩ : Shape).Idx → EReal
  W4 : (⟨2, ![256, 128]⟩ : Shape).Idx → EReal
  b4 : (⟨1, ![128]⟩ : Shape).Idx → EReal
  W5 : (⟨2, ![128, 64]⟩ : Shape).Idx → EReal
  b5 : (⟨1, ![64]⟩ : Shape).Idx → EReal
  W6 : (⟨2, ![64, 1]⟩ : Shape).Idx → EReal
  b6 : (⟨1, ![1]⟩ : Shape).Idx → EReal
  Wt1 : (⟨2, ![1, 16]⟩ : Shape).Idx → EReal
  bt1 : (⟨1, ![16]⟩ : Shape).Idx → EReal
  Wt2 : (⟨2, ![16, 1]⟩ : Shape).Idx → EReal
  bt2 : (⟨1, ![1]⟩ : Shape).Idx → EReal

/-- The five hidden layers of the (x, y) branch, each as a function of the layer below. -/
def h1 (P : Params) (x : Fin 3 → EReal) (q : Fin 64) : EReal := act (lin (emb12 x) P.W1 P.b1 q)
def h2 (P : Params) (x : Fin 3 → EReal) (q : Fin 128) : EReal := -(act (lin (h1 P x) P.W2 P.b2 q))
def h3 (P : Params) (x : Fin 3 → EReal) (q : Fin 256) : EReal := act (lin (h2 P x) P.W3 P.b3 q)
def h4 (P : Params) (x : Fin 3 → EReal) (q : Fin 128) : EReal := -(act (lin (h3 P x) P.W4 P.b4 q))
def h5 (P : Params) (x : Fin 3 → EReal) (q : Fin 64) : EReal := act (lin (h4 P x) P.W5 P.b5 q)

/-- The (x, y) branch's scalar. -/
def xyOut (P : Params) (x : Fin 3 → EReal) : EReal := lin (h5 P x) P.W6 P.b6 0

/-- The hidden layer of the t branch. -/
def th (P : Params) (x : Fin 3 → EReal) (q : Fin 16) : EReal := act (x 2 * P.Wt1 (ix2 0 q) + P.bt1 (ix1 q))

/-- The t branch's scalar. -/
def tOut (P : Params) (x : Fin 3 → EReal) : EReal := (∑ k : Fin 16, th P x k * P.Wt2 (ix2 k 0)) + P.bt2 (ix1 0)

/-- A row's result. -/
def rowOut (P : Params) (x : Fin 3 → EReal) : EReal := tOut P x * xyOut P x

/-- The whole result: row n of the [1000000, 3] input gives entry (n, 0). -/
def G (P : Params) (xyt : (⟨2, ![1000000, 3]⟩ : Shape).Idx → EReal) : (⟨2, ![1000000, 1]⟩ : Shape).Idx → EReal :=
  fun i => rowOut P (fun j => xyt (ix2 (⟨(i 0).val, idx2_lt0 i⟩ : Fin 1000000) j))

/-! ## The words -/

theorem one_w : Ideal.ofBits .f32 0x3F800000#32 = 1 := by
  simp [Ideal.ofBits, Ideal.ieee]
  rw [← EReal.coe_mul, ← EReal.coe_one]; congr 1; norm_num
theorem two_w : Ideal.ofBits .f32 0x40000000#32 = ((2 : ℝ) : EReal) := by
  simp [Ideal.ofBits, Ideal.ieee]
  rw [← EReal.coe_mul]; congr 1; norm_num
theorem four_w : Ideal.ofBits .f32 0x40800000#32 = ((4 : ℝ) : EReal) := by
  simp [Ideal.ofBits, Ideal.ieee]
  rw [← EReal.coe_mul]; congr 1; norm_num
theorem pi_w : Ideal.ofBits .f32 0x40490FDB#32 = ((13176795 / 4194304 : ℝ) : EReal) := by
  simp [Ideal.ofBits, Ideal.ieee]
  rw [← EReal.coe_mul]; congr 1; norm_num
theorem twopi_w : Ideal.ofBits .f32 0x40C90FDB#32 = ((13176795 / 2097152 : ℝ) : EReal) := by
  simp [Ideal.ofBits, Ideal.ieee]
  rw [← EReal.coe_mul]; congr 1; norm_num
theorem fourpi_w : Ideal.ofBits .f32 0x41490FDB#32 = ((13176795 / 1048576 : ℝ) : EReal) := by
  simp [Ideal.ofBits, Ideal.ieee]
  rw [← EReal.coe_mul]; congr 1; norm_num

/-- The word of 2π is twice the word of π (doubling a binary float is exact). -/
theorem twopi_eq : Ideal.ofBits .f32 0x40C90FDB#32 = piE * Ideal.ofBits .f32 0x40000000#32 := by
  unfold piE; rw [twopi_w, pi_w, two_w, ← EReal.coe_mul]; congr 1; norm_num
/-- The word of 4π is four times the word of π. -/
theorem fourpi_eq : Ideal.ofBits .f32 0x41490FDB#32 = piE * Ideal.ofBits .f32 0x40800000#32 := by
  unfold piE; rw [fourpi_w, pi_w, four_w, ← EReal.coe_mul]; congr 1; norm_num

/-- The three angles spelt with one folded constant each: π·s, (2π)·s, (4π)·s. -/
theorem ang_zero (s : EReal) : Ideal.ofBits .f32 0x40490FDB#32 * s = ang s 0 := by
  show _ = (piE * s) * Ideal.ofBits .f32 0x3F800000#32
  rw [one_w, mul_one]; rfl
theorem ang_one (s : EReal) : Ideal.ofBits .f32 0x40C90FDB#32 * s = ang s 1 := by
  show _ = (piE * s) * Ideal.ofBits .f32 0x40000000#32
  rw [twopi_eq, mul_assoc, mul_comm (Ideal.ofBits .f32 0x40000000#32) s, ← mul_assoc]
theorem ang_two (s : EReal) : Ideal.ofBits .f32 0x41490FDB#32 * s = ang s 2 := by
  show _ = (piE * s) * Ideal.ofBits .f32 0x40800000#32
  rw [fourpi_eq, mul_assoc, mul_comm (Ideal.ofBits .f32 0x40800000#32) s, ← mul_assoc]

/-- Subtracting from the zero word is negation. -/
theorem zero_w_sub (y : EReal) : Ideal.ofBits .f32 0x00000000#32 - y = -y := by
  rw [Ideal.ofBits_zero_f32, sub_eq_add_neg, zero_add]

end Cert.Wave

end
-- ==== Proof.KernelBlocks.lean ====
/-
  The kernel's padded result array, from its blocks.

  The grid has 82 points.  Point t stages rows t·12288 … t·12288 + 12287 of the zero-padded [1007616, 3] input and
  the sixteen weight and bias arrays whole, and writes back columns t·12288 … t·12288 + 12287 of the [1, 1007616]
  result.  Given that the body's stored value at column r of a block is the row function (Spec) of row r of the
  staged input block, point t's written block is block t of ONE array K17 — entry (0, n) the row function of row n
  of the padded input —, the 82 blocks tile the 1007616 columns, and so the array after the run is K17.
-/
import proofs.«120030_j10599979286805_2_alg».proof.Proof.Gen.KernelIdeal.Frame
import proofs.«120030_j10599979286805_2_alg».proof.Proof.Spec
import Idealize.ShloMosaic.Lib.Pipeline.Value
import Idealize.ShloMosaic.Lib.ValueIdx
import Idealize.ShloMosaic.Lib.KernelVsHost
import Idealize.ShloMosaic.Lib.StableHlo.Run

set_option maxRecDepth 16384

noncomputable section

namespace Cert.Wave.KernelValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

theorem idx_facts : ∀ t : Fin cfg0.N, win0_0.index t (0 : Fin 2) = t.val ∧ win0_0.index t (1 : Fin 2) = 0
    ∧ win0_17.index t (0 : Fin 2) = 0 ∧ win0_17.index t (1 : Fin 2) = t.val :=
  (by decide +kernel : ∀ t : Fin grid0.N, _)

theorem hz : (![0, 0] : Fin 2 → Nat) = fun _ => 0 := funext fun a => by fin_cases a <;> rfl

/-- Row r of point t's block of the padded input is row t·12288 + r of the padded array. -/
theorem blk0_apply (c : Dev nD) (t : Fin cfg0.N) (r : Fin 12288) (j : Fin 3) (hn : t.val * 12288 + r.val < 1007616) :
    iblk m c 0 t (ix2 r j) = V m c main_v0 (ix2 (⟨t.val * 12288 + r.val, hn⟩ : Fin 1007616) j) := by
  show V m c main_v0 (((cfg0.win 0).blk t).view.emb (ix2 r j)) = _
  refine congrArg _ (funext fun a => Fin.ext ?_)
  obtain ⟨e0, e1, e2, e3⟩ := idx_facts t
  match a with
  | ⟨0, _⟩ => show win0_0.index t (0 : Fin 2) * 12288 + 1 * r.val = t.val * 12288 + r.val; omega
  | ⟨1, _⟩ => show win0_0.index t (1 : Fin 2) * 3 + 1 * j.val = j.val; omega

theorem idx_whole : ∀ t : Fin cfg0.N, win0_1.index t (0 : Fin 2) = 0
    ∧ win0_1.index t (1 : Fin 2) = 0
    ∧ win0_2.index t (0 : Fin 1) = 0
    ∧ win0_3.index t (0 : Fin 2) = 0
    ∧ win0_3.index t (1 : Fin 2) = 0
    ∧ win0_4.index t (0 : Fin 1) = 0
    ∧ win0_5.index t (0 : Fin 2) = 0
    ∧ win0_5.index t (1 : Fin 2) = 0
    ∧ win0_6.index t (0 : Fin 1) = 0
    ∧ win0_7.index t (0 : Fin 2) = 0
    ∧ win0_7.index t (1 : Fin 2) = 0
    ∧ win0_8.index t (0 : Fin 1) = 0
    ∧ win0_9.index t (0 : Fin 2) = 0
    ∧ win0_9.index t (1 : Fin 2) = 0
    ∧ win0_10.index t (0 : Fin 1) = 0
    ∧ win0_11.index t (0 : Fin 2) = 0
    ∧ win0_11.index t (1 : Fin 2) = 0
    ∧ win0_12.index t (0 : Fin 1) = 0
    ∧ win0_13.index t (0 : Fin 2) = 0
    ∧ win0_13.index t (1 : Fin 2) = 0
    ∧ win0_14.index t (0 : Fin 1) = 0
    ∧ win0_15.index t (0 : Fin 2) = 0
    ∧ win0_15.index t (1 : Fin 2) = 0
    ∧ win0_16.index t (0 : Fin 1) = 0 :=
  (by decide +kernel : ∀ t : Fin grid0.N, _)

/-- Window 1 stages its whole array at every point. -/
theorem blk1_eq (c : Dev nD) (t : Fin cfg0.N) : iblk m c 1 t = V m c main_arg1 := by
  funext y
  show V m c main_arg1 (((cfg0.win 1).blk t).view.emb y) = V m c main_arg1 y
  refine congrArg _ (funext fun a => Fin.ext ?_)
  match a with
  | ⟨0, _⟩ => show win0_1.index t (0 : Fin 2) * 12 + 1 * (y 0).val = (y 0).val; have := (idx_whole t).1; omega
  | ⟨1, _⟩ => show win0_1.index t (1 : Fin 2) * 64 + 1 * (y 1).val = (y 1).val; have := (idx_whole t).2.1; omega

/-- Window 2 stages its whole array at every point. -/
theorem blk2_eq (c : Dev nD) (t : Fin cfg0.N) : iblk m c 2 t = V m c main_arg2 := by
  funext y
  show V m c main_arg2 (((cfg0.win 2).blk t).view.emb y) = V m c main_arg2 y
  refine congrArg _ (funext fun a => Fin.ext ?_)
  match a with
  | ⟨0, _⟩ => show win0_2.index t (0 : Fin 1) * 64 + 1 * (y 0).val = (y 0).val; have := (idx_whole t).2.2.1; omega

/-- Window 3 stages its whole array at every point. -/
theorem blk3_eq (c : Dev nD) (t : Fin cfg0.N) : iblk m c 3 t = V m c main_arg3 := by
  funext y
  show V m c main_arg3 (((cfg0.win 3).blk t).view.emb y) = V m c main_arg3 y
  refine congrArg _ (funext fun a => Fin.ext ?_)
  match a with
  | ⟨0, _⟩ => show win0_3.index t (0 : Fin 2) * 64 + 1 * (y 0).val = (y 0).val; have := (idx_whole t).2.2.2.1; omega
  | ⟨1, _⟩ => show win0_3.index t (1 : Fin 2) * 128 + 1 * (y 1).val = (y 1).val; have := (idx_whole t).2.2.2.2.1; omega

/-- Window 4 stages its whole array at every point. -/
theorem blk4_eq (c : Dev nD) (t : Fin cfg0.N) : iblk m c 4 t = V m c main_arg4 := by
  funext y
  show V m c main_arg4 (((cfg0.win 4).blk t).view.emb y) = V m c main_arg4 y
  refine congrArg _ (funext fun a => Fin.ext ?_)
  match a with
  | ⟨0, _⟩ => show win0_4.index t (0 : Fin 1) * 128 + 1 * (y 0).val = (y 0).val; have := (idx_whole t).2.2.2.2.2.1; omega

/-- Window 5 stages its whole array at every point. -/
theorem blk5_eq (c : Dev nD) (t : Fin cfg0.N) : iblk m c 5 t = V m c main_arg5 := by
  funext y
  show V m c main_arg5 (((cfg0.win 5).blk t).view.emb y) = V m c main_arg5 y
  refine congrArg _ (funext fun a => Fin.ext ?_)
  match a with
  | ⟨0, _⟩ => show win0_5.index t (0 : Fin 2) * 128 + 1 * (y 0).val = (y 0).val; have := (idx_whole t).2.2.2.2.2.2.1; omega
  | ⟨1, _⟩ => show win0_5.index t (1 : Fin 2) * 256 + 1 * (y 1).val = (y 1).val; have := (idx_whole t).2.2.2.2.2.2.2.1; omega

/-- Window 6 stages its whole array at every point. -/
theorem blk6_eq (c : Dev nD) (t : Fin cfg0.N) : iblk m c 6 t = V m c main_arg6 := by
  funext y
  show V m c main_arg6 (((cfg0.win 6).blk t).view.emb y) = V m c main_arg6 y
  refine congrArg _ (funext fun a => Fin.ext ?_)
  match a with
  | ⟨0, _⟩ => show win0_6.index t (0 : Fin 1) * 256 + 1 * (y 0).val = (y 0).val; have := (idx_whole t).2.2.2.2.2.2.2.2.1; omega

/-- Window 7 stages its whole array at every point. -/
theorem blk7_eq (c : Dev nD) (t : Fin cfg0.N) : iblk m c 7 t = V m c main_arg7 := by
  funext y
  show V m c main_arg7 (((cfg0.win 7).blk t).view.emb y) = V m c main_arg7 y
  refine congrArg _ (funext fun a => Fin.ext ?_)
  match a with
  | ⟨0, _⟩ => show win0_7.index t (0 : Fin 2) * 256 + 1 * (y 0).val = (y 0).val; have := (idx_whole t).2.2.2.2.2.2.2.2.2.1; omega
  | ⟨1, _⟩ => show win0_7.index t (1 : Fin 2) * 128 + 1 * (y 1).val = (y 1).val; have := (idx_whole t).2.2.2.2.2.2.2.2.2.2.1; omega

/-- Window 8 stages its whole array at every point. -/
theorem blk8_eq (c : Dev nD) (t : Fin cfg0.N) : iblk m c 8 t = V m c main_arg8 := by
  funext y
  show V m c main_arg8 (((cfg0.win 8).blk t).view.emb y) = V m c main_arg8 y
  refine congrArg _ (funext fun a => Fin.ext ?_)
  match a with
  | ⟨0, _⟩ => show win0_8.index t (0 : Fin 1) * 128 + 1 * (y 0).val = (y 0).val; have := (idx_whole t).2.2.2.2.2.2.2.2.2.2.2.1; omega

/-- Window 9 stages its whole array at every point. -/
theorem blk9_eq (c : Dev nD) (t : Fin cfg0.N) : iblk m c 9 t = V m c main_arg9 := by
  funext y
  show V m c main_arg9 (((cfg0.win 9).blk t).view.emb y) = V m c main_arg9 y
  refine congrArg _ (funext fun a => Fin.ext ?_)
  match a with
  | ⟨0, _⟩ => show win0_9.index t (0 : Fin 2) * 128 + 1 * (y 0).val = (y 0).val; have := (idx_whole t).2.2.2.2.2.2.2.2.2.2.2.2.1; omega
  | ⟨1, _⟩ => show win0_9.index t (1 : Fin 2) * 64 + 1 * (y 1).val = (y 1).val; have := (idx_whole t).2.2.2.2.2.2.2.2.2.2.2.2.2.1; omega

/-- Window 10 stages its whole array at every point. -/
theorem blk10_eq (c : Dev nD) (t : Fin cfg0.N) : iblk m c 10 t = V m c main_arg10 := by
  funext y
  show V m c main_arg10 (((cfg0.win 10).blk t).view.emb y) = V m c main_arg10 y
  refine congrArg _ (funext fun a => Fin.ext ?_)
  match a with
  | ⟨0, _⟩ => show win0_10.index t (0 : Fin 1) * 64 + 1 * (y 0).val = (y 0).val; have := (idx_whole t).2.2.2.2.2.2.2.2.2.2.2.2.2.2.1; omega

/-- Window 11 stages its whole array at every point. -/
theorem blk11_eq (c : Dev nD) (t : Fin cfg0.N) : iblk m c 11 t = V m c main_arg11 := by
  funext y
  show V m c main_arg11 (((cfg0.win 11).blk t).view.emb y) = V m c main_arg11 y
  refine congrArg _ (funext fun a => Fin.ext ?_)
  match a with
  | ⟨0, _⟩ => show win0_11.index t (0 : Fin 2) * 64 + 1 * (y 0).val = (y 0).val; have := (idx_whole t).2.2.2.2.2.2.2.2.2.2.2.2.2.2.2.1; omega
  | ⟨1, _⟩ => show win0_11.index t (1 : Fin 2) * 1 + 1 * (y 1).val = (y 1).val; have := (idx_whole t).2.2.2.2.2.2.2.2.2.2.2.2.2.2.2.2.1; omega

/-- Window 12 stages its whole array at every point. -/
theorem blk12_eq (c : Dev nD) (t : Fin cfg0.N) : iblk m c 12 t = V m c main_arg12 := by
  funext y
  show V m c main_arg12 (((cfg0.win 12).blk t).view.emb y) = V m c main_arg12 y
  refine congrArg _ (funext fun a => Fin.ext ?_)
  match a with
  | ⟨0, _⟩ => show win0_12.index t (0 : Fin 1) * 1 + 1 * (y 0).val = (y 0).val; have := (idx_whole t).2.2.2.2.2.2.2.2.2.2.2.2.2.2.2.2.2.1; omega

/-- Window 13 stages its whole array at every point. -/
theorem blk13_eq (c : Dev nD) (t : Fin cfg0.N) : iblk m c 13 t = V m c main_arg13 := by
  funext y
  show V m c main_arg13 (((cfg0.win 13).blk t).view.emb y) = V m c main_arg13 y
  refine congrArg _ (funext fun a => Fin.ext ?_)
  match a with
  | ⟨0, _⟩ => show win0_13.index t (0 : Fin 2) * 1 + 1 * (y 0).val = (y 0).val; have := (idx_whole t).2.2.2.2.2.2.2.2.2.2.2.2.2.2.2.2.2.2.1; omega
  | ⟨1, _⟩ => show win0_13.index t (1 : Fin 2) * 16 + 1 * (y 1).val = (y 1).val; have := (idx_whole t).2.2.2.2.2.2.2.2.2.2.2.2.2.2.2.2.2.2.2.1; omega

/-- Window 14 stages its whole array at every point. -/
theorem blk14_eq (c : Dev nD) (t : Fin cfg0.N) : iblk m c 14 t = V m c main_arg14 := by
  funext y
  show V m c main_arg14 (((cfg0.win 14).blk t).view.emb y) = V m c main_arg14 y
  refine congrArg _ (funext fun a => Fin.ext ?_)
  match a with
  | ⟨0, _⟩ => show win0_14.index t (0 : Fin 1) * 16 + 1 * (y 0).val = (y 0).val; have := (idx_whole t).2.2.2.2.2.2.2.2.2.2.2.2.2.2.2.2.2.2.2.2.1; omega

/-- Window 15 stages its whole array at every point. -/
theorem blk15_eq (c : Dev nD) (t : Fin cfg0.N) : iblk m c 15 t = V m c main_arg15 := by
  funext y
  show V m c main_arg15 (((cfg0.win 15).blk t).view.emb y) = V m c main_arg15 y
  refine congrArg _ (funext fun a => Fin.ext ?_)
  match a with
  | ⟨0, _⟩ => show win0_15.index t (0 : Fin 2) * 16 + 1 * (y 0).val = (y 0).val; have := (idx_whole t).2.2.2.2.2.2.2.2.2.2.2.2.2.2.2.2.2.2.2.2.2.1; omega
  | ⟨1, _⟩ => show win0_15.index t (1 : Fin 2) * 1 + 1 * (y 1).val = (y 1).val; have := (idx_whole t).2.2.2.2.2.2.2.2.2.2.2.2.2.2.2.2.2.2.2.2.2.2.1; omega

/-- Window 16 stages its whole array at every point. -/
theorem blk16_eq (c : Dev nD) (t : Fin cfg0.N) : iblk m c 16 t = V m c main_arg16 := by
  funext y
  show V m c main_arg16 (((cfg0.win 16).blk t).view.emb y) = V m c main_arg16 y
  refine congrArg _ (funext fun a => Fin.ext ?_)
  match a with
  | ⟨0, _⟩ => show win0_16.index t (0 : Fin 1) * 1 + 1 * (y 0).val = (y 0).val; have := (idx_whole t).2.2.2.2.2.2.2.2.2.2.2.2.2.2.2.2.2.2.2.2.2.2.2; omega

theorem hz1 : (![0] : Fin 1 → Nat) = fun _ => 0 := funext fun a => by fin_cases a; rfl

/-- The weights and biases as the region finds them. -/
def P (c : Dev nD) : Cert.Wave.Params := ⟨V m c main_arg1, V m c main_arg2, V m c main_arg3, V m c main_arg4, V m c main_arg5, V m c main_arg6, V m c main_arg7, V m c main_arg8, V m c main_arg9, V m c main_arg10, V m c main_arg11, V m c main_arg12, V m c main_arg13, V m c main_arg14, V m c main_arg15, V m c main_arg16⟩

/-- The padded [1, 1007616] result: entry (0, n) is the row function of row n of the padded input. -/
def K17 (c : Dev nD) : S1x1007616.Idx → EReal :=
  fun i => Cert.Wave.rowOut (P m c) (fun j => V m c main_v0 (ix2 (⟨(i 1).val, idx2_lt1 i⟩ : Fin 1007616) j))

section
variable (hpay : ∀ (x0 : Vec Ideal S12288x3 .f32) (x1 : Vec Ideal S12x64 .f32) (x2 : Vec Ideal S64 .f32) (x3 : Vec Ideal S64x128 .f32) (x4 : Vec Ideal S128 .f32) (x5 : Vec Ideal S128x256 .f32) (x6 : Vec Ideal S256 .f32) (x7 : Vec Ideal S256x128 .f32) (x8 : Vec Ideal S128 .f32) (x9 : Vec Ideal S128x64 .f32) (x10 : Vec Ideal S64 .f32) (x11 : Vec Ideal S64x1 .f32) (x12 : Vec Ideal S1 .f32) (x13 : Vec Ideal S1x16 .f32) (x14 : Vec Ideal S16 .f32) (x15 : Vec Ideal S16x1 .f32) (x16 : Vec Ideal S1 .f32) (r : Fin 12288),
      k0_pay1 (F := Ideal) (k0_pay3 x0) (k0_pay5 (k0_pay4 x0 x1 x2) x3 x4 x5 x6 x7 x8 x9 x10) x11 x12 x13 x14 x15 x16 (ix2 (0 : Fin 1) r)
        = Cert.Wave.rowOut ⟨x1, x2, x3, x4, x5, x6, x7, x8, x9, x10, x11, x12, x13, x14, x15, x16⟩ (fun j => x0 (ix2 r j)))

include hpay in
theorem flushed_eq (c : Dev nD) (t : Fin cfg0.N) :
    (dats m 0 c).flushed 17 t = ((cfg0.win 17).blk t).view.read (Elt Ideal) (K17 m c) := by
  show (cfg0.win 17).cut (grid0.coords t) ((dats m 0 c).after 17 t) = _
  rw [after0_17]
  unfold out0_17
  rw [View.canon_unit_zero hz]
  simp only [View.ld_unit_zero (S := S12288x3) hz, View.ld_unit_zero (S := S12x64) hz, View.ld_unit_zero (S := S64) hz1, View.ld_unit_zero (S := S64x128) hz, View.ld_unit_zero (S := S128) hz1, View.ld_unit_zero (S := S128x256) hz, View.ld_unit_zero (S := S256) hz1, View.ld_unit_zero (S := S256x128) hz, View.ld_unit_zero (S := S128x64) hz, View.ld_unit_zero (S := S64x1) hz, View.ld_unit_zero (S := S1) hz1, View.ld_unit_zero (S := S1x16) hz, View.ld_unit_zero (S := S16) hz1, View.ld_unit_zero (S := S16x1) hz]
  funext y
  have ht : t.val < 82 := lt_of_lt_of_eq t.isLt (N_0 : cfg0.N = 82)
  have hy1 : (y 1).val < 12288 := idx2_lt1 (n0 := 1) (n1 := 12288) y
  have hy0 : (y 0).val < 1 := idx2_lt0 (n0 := 1) (n1 := 12288) y
  have hy : y = ix2 (0 : Fin 1) (⟨(y 1).val, hy1⟩ : Fin 12288) := by
    funext a
    match a with
    | ⟨0, _⟩ => exact Fin.ext (by show (y 0).val = 0; omega)
    | ⟨1, _⟩ => rfl
  refine (congrArg _ hy).trans ?_
  refine (hpay _ _ _ _ _ _ _ _ _ _ _ _ _ _ _ _ _ ⟨(y 1).val, hy1⟩).trans ?_
  rw [blk1_eq, blk2_eq, blk3_eq, blk4_eq, blk5_eq, blk6_eq, blk7_eq, blk8_eq, blk9_eq, blk10_eq, blk11_eq, blk12_eq, blk13_eq, blk14_eq, blk15_eq, blk16_eq]
  obtain ⟨e0, e1, e2, e3⟩ := idx_facts t
  show Cert.Wave.rowOut (P m c) _ = Cert.Wave.rowOut (P m c) _
  refine congrArg (Cert.Wave.rowOut (P m c)) (funext fun j => ?_)
  rw [blk0_apply m c t ⟨(y 1).val, hy1⟩ j (by show t.val * 12288 + (y 1).val < 1007616; omega)]
  refine congrArg _ (funext fun a => Fin.ext ?_)
  match a with
  | ⟨0, _⟩ => show t.val * 12288 + (y 1).val = win0_17.index t (1 : Fin 2) * 12288 + 1 * (y 1).val; omega
  | ⟨1, _⟩ => rfl

/-- An index of the padded result is in point t's block iff its column is in t's range of 12288 columns. -/
theorem mem_blk (t : Fin cfg0.N) (i : S1x1007616.Idx) :
    i ∈ ((cfg0.win 17).blk t).view.set ↔ ∀ a : Fin 2, win0_17.index t a * S1x12288.size a ≤ (i a).val ∧ (i a).val < win0_17.index t a * S1x12288.size a + S1x12288.size a := by
  show i ∈ ((View.whole main_v1).slice (win0_17.rect t)).set ↔ _
  rw [View.set_slice_whole, Rect.mem_set_unit]
  exact Iff.rfl

/-- The 82 blocks of 12288 columns tile the 1007616 columns. -/
theorem cover (i : S1x1007616.Idx) : ∃ t : Fin cfg0.N, (cfg0.win 17).flush t = true ∧ i ∈ ((cfg0.win 17).blk t).view.set := by
  have hi1 : (i 1).val < 1007616 := idx2_lt1 (n0 := 1) (n1 := 1007616) i
  have hi0 : (i 0).val < 1 := idx2_lt0 (n0 := 1) (n1 := 1007616) i
  refine ⟨⟨(i 1).val / 12288, by show (i 1).val / 12288 < cfg0.N; rw [show cfg0.N = 82 from N_0]; omega⟩, flush0_17 _, ?_⟩
  rw [mem_blk]
  obtain ⟨e0, e1, e2, e3⟩ := idx_facts ⟨(i 1).val / 12288, by show (i 1).val / 12288 < cfg0.N; rw [show cfg0.N = 82 from N_0]; omega⟩
  intro a
  match a with
  | ⟨0, _⟩ => show win0_17.index _ (0 : Fin 2) * 1 ≤ (i 0).val ∧ (i 0).val < win0_17.index _ (0 : Fin 2) * 1 + 1; rw [e2]; omega
  | ⟨1, _⟩ => show win0_17.index _ (1 : Fin 2) * 12288 ≤ (i 1).val ∧ (i 1).val < win0_17.index _ (1 : Fin 2) * 12288 + 12288; rw [e3]; show (i 1).val / 12288 * 12288 ≤ (i 1).val ∧ (i 1).val < (i 1).val / 12288 * 12288 + 12288; omega

include hpay in
/-- The padded result array after the run. -/
theorem final (c : Dev nD) : (dats m 0 c).arrAt 17 cfg0.N = K17 m c :=
  (dats m 0 c).arrAt_eq_of_cover 17 (K17 m c) (fun t _ => flushed_eq m hpay c t) (cover)

end

end Cert.Wave.KernelValue
end
-- ==== Proof.KernelHost.lean ====
/-
  The host operations around the kernel's region.

  Before it: the [1000000, 3] input is padded with 7616 rows of zeros to [1007616, 3] (82 blocks of 12288 rows).
  After it: the [1, 1007616] result is cut to its first 1000000 columns and re-laid as a [1000000, 1] column, so
  entry (n, 0) of the program's result is entry (0, n) of the padded result, and row n < 1000000 of the padded
  input is row n of the input.
-/
import proofs.«120030_j10599979286805_2_alg».proof.Proof.Gen.KernelIdeal.Frame
import Idealize.ShloMosaic.Lib.Pipeline.Value
import Idealize.ShloMosaic.Lib.ValueIdx
import Idealize.ShloMosaic.Lib.KernelVsHost
import Idealize.ShloMosaic.Lib.StableHlo.Run

set_option maxRecDepth 16384

noncomputable section

namespace Cert.Wave.KernelHost

open Cert.KernelIdeal Cert.KernelIdeal.Gen
open Idealize.ShloMosaic Idealize.ShloMosaic.TcCoe Idealize.ShloMosaic.ValueIdx Idealize.SL.Sem

section
variable {F : FTy → Type} [FloatOps F]
variable (m : (ℓ : Loc nD τ sig) → Buf (Elt F) ℓ)

/-- The region finds the input padded below with rows of the zero word. -/
theorem V_v0 (c : Dev nD) :
    (V m c main_v0 : FVec F S1007616x3 .f32) = pad S1007616x3 ![0, 0] ![7616, 0] ![0, 0] (m ((c : Thread nD τ).loc main_arg0)) (sitofp .f32 (constantI S_ 32 0#32) : FVec F S_ .f32) pads_S1000000x3_S1007616x3_076160_000 h_S_ := by
  dsimp only [Gen.V, Gen.V0]
  simp only [Gen.hostOps0, Gen.hostOps0_1, List.flatten_cons, List.flatten_nil, List.append_nil, List.cons_append, List.nil_append]
  after_results
  rfl

/-- The program's result is the padded result's first 1000000 columns, re-laid as a column. -/
theorem tail_eq (c : Dev nD) (A : FVec F S1x1007616 .f32) (hA : (dats m 0 c).arrAt 17 cfg0.N = A) :
    (Pipeline.afterTail₀ cfgs (dats m) 0 (V0 m) [hostOps1] c main_v3 : FVec F S1000000x1 .f32) = shapeCast S1000000x1 (extractStridedSlice S1x1000000 ![0, 0] A slices_S1x1007616_S1x1000000_0_0) shapeCasts_S1x1000000_S1000000x1 := by
  unfold Pipeline.afterTail₀
  show StableHlo.after hostOps1 _ (Proc.devRef .tc main_v3) = _
  after_results
  have hw := (Pipeline.withArrays_arr spec0 launch0.win.arr_inj c (V0 m c) (fun w => (dats m 0 c).arrAt w (cfgs 0).N) 17).trans hA
  rw [hw]
  rfl

/-- The frame run's post, read at the result buffer: what the operations after the region leave there. -/
theorem val_of (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_v3) = Pipeline.afterTail₀ cfgs (dats m) 0 (V0 m) [hostOps1] c main_v3 :=
  (h c).2 main_v3 (Pipeline.mem_restRefs_of main_v3 (by decide) (by decide))

/-- The frame run's post, read at the seventeen argument arrays: each ends as launched. -/
theorem kept_of (r : PUnit × MemSt nD τ sig (Elt F))
    (h : Pipeline.FramePost cfgs (dats m) 0 (Pipeline.afterTail₀ cfgs (dats m) 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  ⟨((h c).2 main_arg0 (Pipeline.mem_restRefs_of main_arg0 (by decide) (by decide))).trans (W_main_arg0 m (dats m) c),
      ((h c).1 1).trans ((((dats m) 0 c).arrAt_in 1 rfl _).trans ((A_eq m c 1).trans (V_main_arg1 m c))),
      ((h c).1 2).trans ((((dats m) 0 c).arrAt_in 2 rfl _).trans ((A_eq m c 2).trans (V_main_arg2 m c))),
      ((h c).1 3).trans ((((dats m) 0 c).arrAt_in 3 rfl _).trans ((A_eq m c 3).trans (V_main_arg3 m c))),
      ((h c).1 4).trans ((((dats m) 0 c).arrAt_in 4 rfl _).trans ((A_eq m c 4).trans (V_main_arg4 m c))),
      ((h c).1 5).trans ((((dats m) 0 c).arrAt_in 5 rfl _).trans ((A_eq m c 5).trans (V_main_arg5 m c))),
      ((h c).1 6).trans ((((dats m) 0 c).arrAt_in 6 rfl _).trans ((A_eq m c 6).trans (V_main_arg6 m c))),
      ((h c).1 7).trans ((((dats m) 0 c).arrAt_in 7 rfl _).trans ((A_eq m c 7).trans (V_main_arg7 m c))),
      ((h c).1 8).trans ((((dats m) 0 c).arrAt_in 8 rfl _).trans ((A_eq m c 8).trans (V_main_arg8 m c))),
      ((h c).1 9).trans ((((dats m) 0 c).arrAt_in 9 rfl _).trans ((A_eq m c 9).trans (V_main_arg9 m c))),
      ((h c).1 10).trans ((((dats m) 0 c).arrAt_in 10 rfl _).trans ((A_eq m c 10).trans (V_main_arg10 m c))),
      ((h c).1 11).trans ((((dats m) 0 c).arrAt_in 11 rfl _).trans ((A_eq m c 11).trans (V_main_arg11 m c))),
      ((h c).1 12).trans ((((dats m) 0 c).arrAt_in 12 rfl _).trans ((A_eq m c 12).trans (V_main_arg12 m c))),
      ((h c).1 13).trans ((((dats m) 0 c).arrAt_in 13 rfl _).trans ((A_eq m c 13).trans (V_main_arg13 m c))),
      ((h c).1 14).trans ((((dats m) 0 c).arrAt_in 14 rfl _).trans ((A_eq m c 14).trans (V_main_arg14 m c))),
      ((h c).1 15).trans ((((dats m) 0 c).arrAt_in 15 rfl _).trans ((A_eq m c 15).trans (V_main_arg15 m c))),
      ((h c).1 16).trans ((((dats m) 0 c).arrAt_in 16 rfl _).trans ((A_eq m c 16).trans (V_main_arg16 m c)))⟩

end

/-- Row n < 1000000 of the padded input is row n of the input. -/
theorem pad_row {α : Type} (x : S1000000x3.Idx → α) (v : S_.Idx → α) (n : Fin 1000000) (j : Fin 3) (hn : n.val < 1007616) :
    pad S1007616x3 ![0, 0] ![7616, 0] ![0, 0] x v pads_S1000000x3_S1007616x3_076160_000 h_S_ (ix2 (⟨n.val, hn⟩ : Fin 1007616) j) = x (ix2 n j) :=
  pad_apply_of_inside _ _ _ x v _ _ _ (ix2 n j) (fun a => by
    match a with
    | ⟨0, _⟩ => show n.val = 0 + n.val * (0 + 1); omega
    | ⟨1, _⟩ => show j.val = 0 + j.val * (0 + 1); omega)

/-- Entry (n, 0) of the cut and re-laid result is entry (0, n) of the padded result. -/
theorem tail_apply {α : Type} (A : S1x1007616.Idx → α) (n : Fin 1000000) (hn : n.val < 1007616) :
    shapeCast S1000000x1 (extractStridedSlice S1x1000000 ![0, 0] A slices_S1x1007616_S1x1000000_0_0) shapeCasts_S1x1000000_S1000000x1 (ix2 n (0 : Fin 1))
      = A (ix2 (0 : Fin 1) (⟨n.val, hn⟩ : Fin 1007616)) := by
  refine (shapeCast_apply _ _ (ix2 n (0 : Fin 1)) (ix2 (0 : Fin 1) n) ?_).trans ?_
  · rw [Shape.rowMajor_val_two, Shape.rowMajor_val_two]
    show (0 : ℕ) * 1000000 + n.val = n.val * 1 + 0
    omega
  · exact extractStridedSlice_apply _ _ _ _ _ (fun a => by
      match a with
      | ⟨0, _⟩ => rfl
      | ⟨1, _⟩ => show n.val = 0 + n.val; omega)

end Cert.Wave.KernelHost
end
-- ==== Proof.KernelRun.lean ====
/-
  The kernel program's run, read as a value.

  Every weakly fair execution ends with the result array holding, at (n, 0), the row function (Spec) of row n of the
  input — entry (0, n) of the padded result, whose row n is the input's row n since n < 1000000 —, and with the
  seventeen argument arrays unchanged.  The one hypothesis is the body's arithmetic at a column of a block.
-/
import proofs.«120030_j10599979286805_2_alg».proof.Proof.KernelBlocks
import proofs.«120030_j10599979286805_2_alg».proof.Proof.KernelHost

set_option maxRecDepth 16384

noncomputable section

namespace Cert.Wave.KernelRun

open Cert.KernelIdeal Cert.KernelIdeal.Gen Cert.Wave.KernelValue Cert.Wave.KernelHost
open Idealize.ShloMosaic Idealize.ShloMosaic.TcCoe Idealize.ShloMosaic.ValueIdx Idealize.SL.Sem

variable (m : (ℓ : Loc nD τ sig) → Buf (Elt Ideal) ℓ) (ρ : Dev nD → PrngReg)
variable (hpay : ∀ (x0 : Vec Ideal S12288x3 .f32) (x1 : Vec Ideal S12x64 .f32) (x2 : Vec Ideal S64 .f32) (x3 : Vec Ideal S64x128 .f32) (x4 : Vec Ideal S128 .f32) (x5 : Vec Ideal S128x256 .f32) (x6 : Vec Ideal S256 .f32) (x7 : Vec Ideal S256x128 .f32) (x8 : Vec Ideal S128 .f32) (x9 : Vec Ideal S128x64 .f32) (x10 : Vec Ideal S64 .f32) (x11 : Vec Ideal S64x1 .f32) (x12 : Vec Ideal S1 .f32) (x13 : Vec Ideal S1x16 .f32) (x14 : Vec Ideal S16 .f32) (x15 : Vec Ideal S16x1 .f32) (x16 : Vec Ideal S1 .f32) (r : Fin 12288),
      k0_pay1 (F := Ideal) (k0_pay3 x0) (k0_pay5 (k0_pay4 x0 x1 x2) x3 x4 x5 x6 x7 x8 x9 x10) x11 x12 x13 x14 x15 x16 (ix2 (0 : Fin 1) r)
        = Cert.Wave.rowOut ⟨x1, x2, x3, x4, x5, x6, x7, x8, x9, x10, x11, x12, x13, x14, x15, x16⟩ (fun j => x0 (ix2 r j)))

include hpay in
/-- The program's result array is the specification's. -/
theorem val_eq (c : Dev nD) :
    Pipeline.afterTail₀ cfgs (dats m) 0 (V0 m) [hostOps1] c main_v3
      = Cert.Wave.G ⟨m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14), m ((c.tc : Thread nD τ).loc main_arg15), m ((c.tc : Thread nD τ).loc main_arg16)⟩ (m ((c.tc : Thread nD τ).loc main_arg0)) := by
  refine (tail_eq m c (K17 m c) (final m hpay c)).trans (funext fun i => ?_)
  have hi0 : (i 0).val < 1000000 := idx2_lt0 (n0 := 1000000) (n1 := 1) i
  have hi1 : (i 1).val < 1 := idx2_lt1 (n0 := 1000000) (n1 := 1) i
  have hi : i = ix2 (⟨(i 0).val, hi0⟩ : Fin 1000000) (0 : Fin 1) := by
    funext a
    match a with
    | ⟨0, _⟩ => rfl
    | ⟨1, _⟩ => exact Fin.ext (by show (i 1).val = 0; omega)
  refine (congrArg _ hi).trans ?_
  refine (tail_apply (K17 m c) ⟨(i 0).val, hi0⟩ (by show (i 0).val < 1007616; omega)).trans ?_
  have hP : P m c = ⟨m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14), m ((c.tc : Thread nD τ).loc main_arg15), m ((c.tc : Thread nD τ).loc main_arg16)⟩ := by
    unfold P
    rw [V_main_arg1 m c, V_main_arg2 m c, V_main_arg3 m c, V_main_arg4 m c, V_main_arg5 m c, V_main_arg6 m c, V_main_arg7 m c, V_main_arg8 m c, V_main_arg9 m c, V_main_arg10 m c, V_main_arg11 m c, V_main_arg12 m c, V_main_arg13 m c, V_main_arg14 m c, V_main_arg15 m c, V_main_arg16 m c]
  show Cert.Wave.rowOut (P m c) _ = Cert.Wave.rowOut _ _
  rw [hP]
  refine congrArg _ (funext fun j => ?_)
  refine (congrFun (V_v0 m c) _).trans ?_
  exact pad_row _ _ ⟨(i 0).val, hi0⟩ j _

include hpay in
/-- The run: the result at the specification, the arguments unchanged. -/
theorem run_G : θ_run defs (onTc (τ := τ) (main (F := Ideal))) ⟨m, fun _ => 0, ρ⟩ fun r => ∀ c : Dev nD,
      r.2.mem ((c.tc : Thread nD τ).loc main_v3) = Cert.Wave.G ⟨m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14), m ((c.tc : Thread nD τ).loc main_arg15), m ((c.tc : Thread nD τ).loc main_arg16)⟩ (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun r h c => ⟨(val_of m r h c).trans (val_eq m hpay c), kept_of m r h c⟩) (run_main m ρ)

end Cert.Wave.KernelRun
end
-- ==== Proof.LibMidAxisRows.lean ====
/-
  Row statistics along the MIDDLE axis of a rank-3 vector, and the layout steps beside them, at the ideal values, for
  any extents a, b, c.

  A normalisation over the middle axis of an [a, b, c] vector takes a statistic of each line (p, ·, k) — its maximum,
  its sum — as a `vector.multi_reduction` over axis 1 into [a, c], and puts it back beside every entry of the line by a
  `vector.shape_cast` [a, c] → [a, 1, c] followed by a `vector.broadcast` [a, 1, c] → [a, b, c]. Read at (p, q, k):
  * `lift_mid`: the reduced index (p, k) with coordinate `q` put back on axis 1 is (p, q, k);
  * `multiReduction_add_mid`: the `<add>` reduction at (p, k) is `∑ q, src (p, q, k)`;
  * `multiReduction_maximumf_mid`: the `<maximumf>` reduction at (p, k) is the fold of `max`, from the accumulator's
    value, over `q ↦ src (p, q, k)`;
  * `keepdims_mid`: the cast and the broadcast read, at (p, q, k), the statistic at (p, k) — for `b = 1` too, and
    whatever `a` and `c` are;
  * `squeeze_mid` / `unsqueeze_mid`: a shape cast that drops or adds a unit middle axis keeps (p, k) beside (p, 0, k);
  * `transpose_021`: the last two axes swapped, read at (p, k, q), is the operand at (p, q, k);
  * `concat_axis1` (and `concat_axis1_of_eq`, the joined extent a name of its own): two matrices joined along their
    columns read, at (p, j), the first at (p, j) when `j` is below its width and the second at (p, j − width) otherwise.
  The reduction lemmas take the format and accumulator facts as hypotheses typed the way the operation's own
  arguments are (`acc = FKind.add.neutral φ hφ`), so a proof applies them by `refine (… ).trans ?_` to a printed term.
-/
import Idealize.ShloMosaic.Lib.Pipeline.Value
import Idealize.ShloMosaic.Lib.ValueIdx
import Idealize.ShloMosaic.PureOps.Ideal.Laws

noncomputable section

namespace Idealize.ShloMosaic.MidAxisRows

open Idealize.ShloMosaic Idealize.ShloMosaic.ValueIdx

variable {a b c : Nat}

/-- The reduced index (p, k) with coordinate `q` put back on the middle axis is (p, q, k). -/
theorem lift_mid (h : (⟨3, ![a, b, c]⟩ : Shape).Reduces [1] (⟨2, ![a, c]⟩ : Shape)) (p : Fin a) (k : Fin c)
    (q : Fin ((⟨3, ![a, b, c]⟩ : Shape).size 1)) : h.lift (ix2 p k) q = ix3 p (⟨q.val, q.isLt⟩ : Fin b) k := by
  funext d; apply Fin.ext
  fin_cases d <;> rfl

/-- A float `vector.multi_reduction <add>` over the middle axis, at (p, k): the sum over q of the entries (p, q, k). -/
theorem multiReduction_add_mid {φ : FTy} (src : FVec Ideal (⟨3, ![a, b, c]⟩ : Shape) φ) (acc : BitVec φ.bits)
    (h : (⟨3, ![a, b, c]⟩ : Shape).Reduces [1] (⟨2, ![a, c]⟩ : Shape)) (hφ : FKind.Formats φ)
    (hacc : acc = FKind.add.neutral φ hφ) (p : Fin a) (k : Fin c) :
    multiReduction .add [1] (⟨2, ![a, c]⟩ : Shape) src acc h hφ hacc (ix2 p k) = ∑ q : Fin b, src (ix3 p q k) := by
  refine (Ideal.multiReduction_add_single src acc h hφ hacc (ix2 p k)).trans ?_
  exact Finset.sum_congr rfl fun q _ => congrArg src (lift_mid h p k q)

/-- A float `vector.multi_reduction <maximumf>` over the middle axis, at (p, k): the fold of `max` over the entries
    (p, q, k), q running, from the accumulator's value. -/
theorem multiReduction_maximumf_mid {φ : FTy} (src : FVec Ideal (⟨3, ![a, b, c]⟩ : Shape) φ) (acc : BitVec φ.bits)
    (h : (⟨3, ![a, b, c]⟩ : Shape).Reduces [1] (⟨2, ![a, c]⟩ : Shape)) (hφ : FKind.Formats φ)
    (hacc : acc = FKind.maximumf.neutral φ hφ) (p : Fin a) (k : Fin c) :
    multiReduction .maximumf [1] (⟨2, ![a, c]⟩ : Shape) src acc h hφ hacc (ix2 p k)
      = (Finset.univ : Finset (Fin b)).fold max (FloatOps.ofBits φ acc) (fun q => src (ix3 p q k)) := by
  refine (Ideal.multiReduction_maximumf_single src acc h hφ hacc (ix2 p k)).trans ?_
  have hf : (src ∘ h.lift (ix2 p k)) = fun q : Fin b => src (ix3 p q k) := funext fun q => congrArg src (lift_mid h p k q)
  exact congrArg (fun f => Finset.fold max (FloatOps.ofBits φ acc) f (Finset.univ : Finset (Fin b))) hf

/-- A line statistic put back on its line (keepdims): the cast to a unit middle axis and the broadcast along it read,
    at (p, q, k), the statistic at (p, k). -/
theorem keepdims_mid {α : Type} (R : (⟨2, ![a, c]⟩ : Shape).Idx → α)
    (h1 : (⟨2, ![a, c]⟩ : Shape).ShapeCasts (⟨3, ![a, 1, c]⟩ : Shape))
    (h2 : (⟨3, ![a, 1, c]⟩ : Shape).Broadcasts (⟨3, ![a, b, c]⟩ : Shape)) (p : Fin a) (q : Fin b) (k : Fin c) :
    broadcastTo (⟨3, ![a, b, c]⟩ : Shape) (shapeCast (⟨3, ![a, 1, c]⟩ : Shape) R h1) h2 (ix3 p q k) = R (ix2 p k) := by
  refine (broadcastTo_apply (shapeCast (⟨3, ![a, 1, c]⟩ : Shape) R h1) h2 (ix3 p q k) (ix3 p (0 : Fin 1) k) ?_).trans ?_
  · intro d
    match d with
    | ⟨0, _⟩ =>
      show p.val = if a = 1 then 0 else p.val
      split
      · have := p.isLt; omega
      · rfl
    | ⟨1, _⟩ => exact (if_pos rfl).symm
    | ⟨2, _⟩ =>
      show k.val = if c = 1 then 0 else k.val
      split
      · have := k.isLt; omega
      · rfl
  · refine shapeCast_apply R h1 (ix3 p (0 : Fin 1) k) (ix2 p k) ?_
    rw [Shape.rowMajor_val_two, Shape.rowMajor_val_three]
    show p.val * c + k.val = (p.val * 1 + 0) * c + k.val
    rw [Nat.mul_one, Nat.add_zero]

/-- A shape cast that drops a unit middle axis reads, at (p, k), the operand at (p, 0, k). -/
theorem squeeze_mid {α : Type} (x : (⟨3, ![a, 1, c]⟩ : Shape).Idx → α)
    (h : (⟨3, ![a, 1, c]⟩ : Shape).ShapeCasts (⟨2, ![a, c]⟩ : Shape)) (p : Fin a) (k : Fin c) :
    shapeCast (⟨2, ![a, c]⟩ : Shape) x h (ix2 p k) = x (ix3 p (0 : Fin 1) k) := by
  refine shapeCast_apply x h (ix2 p k) (ix3 p (0 : Fin 1) k) ?_
  rw [Shape.rowMajor_val_two, Shape.rowMajor_val_three]
  show (p.val * 1 + 0) * c + k.val = p.val * c + k.val
  rw [Nat.mul_one, Nat.add_zero]

/-- A shape cast that adds a unit middle axis reads, at (p, 0, k), the operand at (p, k). -/
theorem unsqueeze_mid {α : Type} (y : (⟨2, ![a, c]⟩ : Shape).Idx → α)
    (h : (⟨2, ![a, c]⟩ : Shape).ShapeCasts (⟨3, ![a, 1, c]⟩ : Shape)) (p : Fin a) (k : Fin c) :
    shapeCast (⟨3, ![a, 1, c]⟩ : Shape) y h (ix3 p (0 : Fin 1) k) = y (ix2 p k) := by
  refine shapeCast_apply y h (ix3 p (0 : Fin 1) k) (ix2 p k) ?_
  rw [Shape.rowMajor_val_two, Shape.rowMajor_val_three]
  show p.val * c + k.val = (p.val * 1 + 0) * c + k.val
  rw [Nat.mul_one, Nat.add_zero]

/-- A stack of matrices, each transposed (the last two axes swapped), reads, at (p, k, q), the operand at (p, q, k). -/
theorem transpose_021 {α : Type} (x : (⟨3, ![a, b, c]⟩ : Shape).Idx → α)
    (h : (⟨3, ![a, b, c]⟩ : Shape).Transposes [0, 2, 1] (⟨3, ![a, c, b]⟩ : Shape)) (p : Fin a) (k : Fin c) (q : Fin b) :
    transpose (⟨3, ![a, c, b]⟩ : Shape) [0, 2, 1] x h (ix3 p k q) = x (ix3 p q k) :=
  transpose_apply _ x h _ _ fun d => match d with | ⟨0, _⟩ => rfl | ⟨1, _⟩ => rfl | ⟨2, _⟩ => rfl

/-- Two matrices with the same rows joined along their columns, the joined width named `n`: at (p, j) the first at
    (p, j) when `j` is below its width `b1`, the second at (p, j − b1) otherwise. -/
theorem concat_axis1_of_eq {α : Type} {b1 b2 n : Nat} (hn : n = b1 + b2) (x : (⟨2, ![a, b1]⟩ : Shape).Idx → α)
    (y : (⟨2, ![a, b2]⟩ : Shape).Idx → α)
    (h : Shape.Concatenates [(⟨2, ![a, b1]⟩ : Shape), (⟨2, ![a, b2]⟩ : Shape)] (⟨2, ![a, n]⟩ : Shape) 1) (p : Fin a)
    (j : Fin n) :
    concatenate (⟨2, ![a, n]⟩ : Shape) 1 [⟨(⟨2, ![a, b1]⟩ : Shape), x⟩, ⟨(⟨2, ![a, b2]⟩ : Shape), y⟩] h (ix2 p j)
      = if hj : j.val < b1 then x (ix2 p ⟨j.val, hj⟩) else y (ix2 p ⟨j.val - b1, by have := j.isLt; omega⟩) := by
  by_cases hj : j.val < b1
  · rw [dif_pos hj]
    refine concatenate_pair_apply_left 1 x y h (ix2 p j) rfl (ix2 p ⟨j.val, hj⟩) ?_
    intro d
    match d with
    | ⟨0, _⟩ => rfl
    | ⟨1, _⟩ => rfl
  · rw [dif_neg hj]
    refine concatenate_pair_apply_right 1 x y h (ix2 p j) rfl rfl (ix2 p ⟨j.val - b1, by have := j.isLt; omega⟩) ?_ ?_
    · intro d hd
      match d, hd with
      | ⟨0, _⟩, _ => rfl
      | ⟨1, _⟩, hd => exact absurd rfl hd
    · show j.val - b1 + b1 = j.val
      omega

/-- Two matrices with the same rows joined along their columns: at (p, j) the first at (p, j) when `j` is below its
    width `b1`, the second at (p, j − b1) otherwise. -/
theorem concat_axis1 {α : Type} {b1 b2 : Nat} (x : (⟨2, ![a, b1]⟩ : Shape).Idx → α) (y : (⟨2, ![a, b2]⟩ : Shape).Idx → α)
    (h : Shape.Concatenates [(⟨2, ![a, b1]⟩ : Shape), (⟨2, ![a, b2]⟩ : Shape)] (⟨2, ![a, b1 + b2]⟩ : Shape) 1) (p : Fin a)
    (j : Fin (b1 + b2)) :
    concatenate (⟨2, ![a, b1 + b2]⟩ : Shape) 1 [⟨(⟨2, ![a, b1]⟩ : Shape), x⟩, ⟨(⟨2, ![a, b2]⟩ : Shape), y⟩] h (ix2 p j)
      = if hj : j.val < b1 then x (ix2 p ⟨j.val, hj⟩) else y (ix2 p ⟨j.val - b1, by omega⟩) :=
  concat_axis1_of_eq rfl x y h p j

end Idealize.ShloMosaic.MidAxisRows

end
-- ==== Proof.LibMatmulSum.lean ====
/-
  A matrix product with ONE contracted axis, read at an output index as a sum over that axis's positions.

  At the ideal instance a `tpu.matmul` into the zero accumulator, and the host's `dot_general`, are at every
  output index the sum over the contraction index of the products of the two operands' entries. When exactly one axis is
  contracted, the contraction index is one number `k < K`; if at the output index `j` the left operand is read at
  `L k` and the right one at `R k`, the entry is `∑ k : Fin K, lhs (L k) * rhs (R k)`. The two index facts are
  the only thing a caller supplies; they hold for any layout of the contracted and free axes.
-/
import Idealize.ShloMosaic.PureOps.Ideal.Laws
import Idealize.ShloMosaic.Lib.ValueIdx

noncomputable section

namespace Idealize.ShloMosaic.MatmulSum

open Idealize.ShloMosaic Idealize.ShloMosaic.ValueIdx

variable {sl sr so : Shape} {φ₁ φ₂ : FTy}

/-- A `tpu.matmul` into the zero splat with one contracted axis of extent `K`: at `j` it is the sum over `k < K` of the
    left operand at `L k` times the right operand at `R k`, where `L k` and `R k` are the operand indices the
    dimension numbers assign to output index `j` and contraction position `k`. -/
theorem matmul_zero_apply_single (D : DotDims sl sr so) (prec : Option ContractPrecision) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.matmul D prec lhs rhs (constant so .f32 0x00000000#32) j = ∑ k : Fin K, lhs (L k) * rhs (R k) := by
  rw [Ideal.matmul_constant_zero_apply, ← Equiv.sum_comp (contrEquiv1 D K hr hs).symm]
  exact Finset.sum_congr rfl fun k _ => by rw [hL k, hR k]

/-- The host's `dot_general` with one contracted axis of extent `K`, read the same way. -/
theorem dotGeneral_apply_single (D : DotDims sl sr so) (prec : Option ContractPrecision) (sched : HostSchedule) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.dotGeneral D prec sched lhs rhs j = ∑ k : Fin K, lhs (L k) * rhs (R k) := by
  rw [Ideal.dotGeneral_apply, ← Equiv.sum_comp (contrEquiv1 D K hr hs).symm]
  exact Finset.sum_congr rfl fun k _ => by rw [hL k, hR k]

end Idealize.ShloMosaic.MatmulSum

end
-- ==== Proof.LibPlainMatmul.lean ====
/-
  The plain matrix product, M×K by K×N, read at an output entry.

  For the dimension numbers that contract the left operand's second axis with the right operand's first one and have no
  batch axes, the left operand is read at (p, l) and the right one at (l, q) when the output index is (p, q) and the
  contraction position is l. Hence, at the ideal instance, a matrix product into the zero accumulator and the host's
  product are at (p, q) the sum over l < K of lhs (p, l) * rhs (l, q), for every M, K, N and operand formats.
-/
import Idealize.ShloMosaic.PureOps.Ideal.Laws
import Idealize.ShloMosaic.Lib.ValueIdx
import proofs.«120030_j10599979286805_2_alg».proof.Proof.LibMatmulSum

noncomputable section

namespace Idealize.ShloMosaic.PlainMatmul

open Idealize.ShloMosaic Idealize.ShloMosaic.ValueIdx

variable (M K N : Nat)

/-- On its first axis (a free axis) the left operand's index is the output index's first coordinate. -/
theorem plain_lhs_0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- On its second axis (the contracted one) the left operand's index is the contraction position. -/
theorem plain_lhs_1 (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- On its first axis (the contracted one) the right operand's index is the contraction position. -/
theorem plain_rhs_0 (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- On its second axis (a free axis) the right operand's index is the output index's second coordinate. -/
theorem plain_rhs_1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index (p, q) and contraction position l is (p, l). -/
theorem plain_lhsIdx (p : Fin M) (q : Fin N) (l : Fin K) :
    (DotDims.plain M K N).lhsIdx (ix2 p q) ((contrEquiv1 (DotDims.plain M K N) K rfl rfl).symm l) = ix2 p l :=
  funext fun a => Fin.ext (by
    match a with
    | ⟨0, _⟩ => exact plain_lhs_0 M K N _ _
    | ⟨1, _⟩ => exact (plain_lhs_1 M K N _ _).trans (contrEquiv1_symm_val (DotDims.plain M K N) K rfl rfl l))

/-- The right operand's index at output index (p, q) and contraction position l is (l, q). -/
theorem plain_rhsIdx (p : Fin M) (q : Fin N) (l : Fin K) :
    (DotDims.plain M K N).rhsIdx (ix2 p q) ((contrEquiv1 (DotDims.plain M K N) K rfl rfl).symm l) = ix2 l q :=
  funext fun a => Fin.ext (by
    match a with
    | ⟨0, _⟩ => exact (plain_rhs_0 M K N _ _).trans (contrEquiv1_symm_val (DotDims.plain M K N) K rfl rfl l)
    | ⟨1, _⟩ => exact plain_rhs_1 M K N _ _)

/-- A matrix product M×K by K×N into the zero accumulator is, at (p, q), the sum over l of lhs (p, l) * rhs (l, q). -/
theorem plain_matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ l : Fin K, lhs (ix2 p l) * rhs (ix2 l q) :=
  MatmulSum.matmul_zero_apply_single (DotDims.plain M K N) prec K rfl rfl lhs rhs (ix2 p q) (fun l => ix2 p l) (fun l => ix2 l q)
    (plain_lhsIdx M K N p q) (plain_rhsIdx M K N p q)

/-- The host's product M×K by K×N is, at (p, q), the sum over l of lhs (p, l) * rhs (l, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  MatmulSum.dotGeneral_apply_single (DotDims.plain M K N) prec sched K rfl rfl lhs rhs (ix2 p q) (fun l => ix2 p l) (fun l => ix2 l q)
    (plain_lhsIdx M K N p q) (plain_rhsIdx M K N p q)

end Idealize.ShloMosaic.PlainMatmul

end
-- ==== Proof.KernelDense.lean ====
/-
  One dense layer of the block, read at an entry.

  A layer takes an [M, K] array h, a [K, N] weight W and an [N] bias b.  Its pre-activation is the matrix product of h and W
  into the zero array plus the bias laid out as a [1, N] row and repeated over the M rows; at (p, q) this is
  (∑ k, h (p, k) * W (k, q)) + b q, a function of row p of h alone.  The activation multiplies by the f32 word of π and takes
  the sine; a negated layer subtracts that from the zero word.  All for any M, K, N.
-/
import Idealize.ShloMosaic.Lib.ValueLayout
import proofs.«120030_j10599979286805_2_alg».proof.Proof.Spec
import proofs.«120030_j10599979286805_2_alg».proof.Proof.LibPlainMatmul

noncomputable section

namespace Cert.Wave.KernelRow

open Idealize.ShloMosaic Idealize.ShloMosaic.ValueIdx

/-- Row p of an [M, K] array. -/
def row {M K : ℕ} (v : (⟨2, ![M, K]⟩ : Shape).Idx → EReal) (p : Fin M) : Fin K → EReal := fun k => v (ix2 p k)

variable {M K N : ℕ}

/-- The pre-activation at (p, q): the linear layer on row p. -/
theorem pre_apply (D : DotDims ⟨2, ![M, K]⟩ ⟨2, ![K, N]⟩ ⟨2, ![M, N]⟩) (hD : D = DotDims.plain M K N)
    (prec : Option ContractPrecision)
    (h : FVec Ideal ⟨2, ![M, K]⟩ .f32) (W : FVec Ideal ⟨2, ![K, N]⟩ .f32) (b : FVec Ideal ⟨1, ![N]⟩ .f32)
    (h1 : (⟨1, ![N]⟩ : Shape).ShapeCasts ⟨2, ![1, N]⟩) (h2 : (⟨2, ![1, N]⟩ : Shape).Broadcasts ⟨2, ![M, N]⟩)
    (p : Fin M) (q : Fin N) :
    addf (matmul D prec h W (constant ⟨2, ![M, N]⟩ .f32 0x00000000#32))
        (broadcastTo ⟨2, ![M, N]⟩ (shapeCast ⟨2, ![1, N]⟩ b h1) h2) (ix2 p q)
      = lin (row h p) W b q := by
  subst hD
  refine (addf_apply _ _ _).trans ?_
  unfold lin row
  rw [broadcastTo_1b_ab_apply, shapeCast_a_1a_apply]
  exact congrArg (· + b (ix1 q)) (PlainMatmul.plain_matmul_zero_apply M K N prec h W p q)

/-- The activation at an entry: the sine of the π word times the entry. -/
theorem act_apply {s : Shape} (z : FVec Ideal s .f32) (i : s.Idx) :
    sin (mulf (broadcast s (Scalar.ofBits (F := Ideal) .f32 0x40490FDB#32)) z) i = act (z i) := rfl

/-- The negated activation at an entry. -/
theorem negAct_apply {s : Shape} (z : FVec Ideal s .f32) (i : s.Idx) :
    subf (broadcast s (Scalar.ofBits (F := Ideal) .f32 0x00000000#32))
        (sin (mulf (broadcast s (Scalar.ofBits (F := Ideal) .f32 0x40490FDB#32)) z)) i = -(act (z i)) :=
  zero_w_sub _

/-- A layer with the activation, at (p, q). -/
theorem layer_apply (D : DotDims ⟨2, ![M, K]⟩ ⟨2, ![K, N]⟩ ⟨2, ![M, N]⟩) (hD : D = DotDims.plain M K N)
    (prec : Option ContractPrecision)
    (h : FVec Ideal ⟨2, ![M, K]⟩ .f32) (W : FVec Ideal ⟨2, ![K, N]⟩ .f32) (b : FVec Ideal ⟨1, ![N]⟩ .f32)
    (h1 : (⟨1, ![N]⟩ : Shape).ShapeCasts ⟨2, ![1, N]⟩) (h2 : (⟨2, ![1, N]⟩ : Shape).Broadcasts ⟨2, ![M, N]⟩)
    (p : Fin M) (q : Fin N) :
    sin (mulf (broadcast ⟨2, ![M, N]⟩ (Scalar.ofBits (F := Ideal) .f32 0x40490FDB#32))
        (addf (matmul D prec h W (constant ⟨2, ![M, N]⟩ .f32 0x00000000#32))
          (broadcastTo ⟨2, ![M, N]⟩ (shapeCast ⟨2, ![1, N]⟩ b h1) h2))) (ix2 p q)
      = act (lin (row h p) W b q) :=
  (act_apply _ _).trans (congrArg act (pre_apply D hD prec h W b h1 h2 p q))

/-- A negated layer, at (p, q). -/
theorem negLayer_apply (D : DotDims ⟨2, ![M, K]⟩ ⟨2, ![K, N]⟩ ⟨2, ![M, N]⟩) (hD : D = DotDims.plain M K N)
    (prec : Option ContractPrecision)
    (h : FVec Ideal ⟨2, ![M, K]⟩ .f32) (W : FVec Ideal ⟨2, ![K, N]⟩ .f32) (b : FVec Ideal ⟨1, ![N]⟩ .f32)
    (h1 : (⟨1, ![N]⟩ : Shape).ShapeCasts ⟨2, ![1, N]⟩) (h2 : (⟨2, ![1, N]⟩ : Shape).Broadcasts ⟨2, ![M, N]⟩)
    (p : Fin M) (q : Fin N) :
    subf (broadcast ⟨2, ![M, N]⟩ (Scalar.ofBits (F := Ideal) .f32 0x00000000#32))
        (sin (mulf (broadcast ⟨2, ![M, N]⟩ (Scalar.ofBits (F := Ideal) .f32 0x40490FDB#32))
          (addf (matmul D prec h W (constant ⟨2, ![M, N]⟩ .f32 0x00000000#32))
            (broadcastTo ⟨2, ![M, N]⟩ (shapeCast ⟨2, ![1, N]⟩ b h1) h2)))) (ix2 p q)
      = -(act (lin (row h p) W b q)) :=
  (negAct_apply _ _).trans (congrArg (fun z => -(act z)) (pre_apply D hD prec h W b h1 h2 p q))

end Cert.Wave.KernelRow

end
-- ==== Proof.KernelEmbed.lean ====
/-
  The embedding and the first layer of the block, read at an entry.

  Columns 0 and 1 of the [12288, 3] input are each turned into six [12288, 1] columns — the sines of (π·s), (2π)·s, (4π)·s,
  then their cosines, with 2π and 4π the doubled and quadrupled f32 word of π —, joined along the second axis into
  [12288, 6]; the two blocks are joined into [12288, 12].  At (p, j) this is feature j of the twelve features of row p.
  The first dense layer on it is the first hidden layer of the (x, y) branch.
-/
import Idealize.ShloMosaic.Lib.Pipeline.Value
import proofs.«120030_j10599979286805_2_alg».proof.Proof.Gen.KernelIdeal.Skeleton
import proofs.«120030_j10599979286805_2_alg».proof.Proof.LibMidAxisRows
import proofs.«120030_j10599979286805_2_alg».proof.Proof.KernelDense

noncomputable section

namespace Cert.Wave.KernelRow

open Idealize.ShloMosaic Idealize.ShloMosaic.ValueIdx Cert.KernelIdeal Cert.KernelIdeal.Gen

/-- Six [a, 1] columns joined along the second axis read, at (p, c), column c at (p, 0). -/
theorem concat6_apply {α : Type} {a : ℕ} (x0 x1 x2 x3 x4 x5 : (⟨2, ![a, 1]⟩ : Shape).Idx → α)
    (h : Shape.Concatenates [(⟨2, ![a, 1]⟩ : Shape), ⟨2, ![a, 1]⟩, ⟨2, ![a, 1]⟩, ⟨2, ![a, 1]⟩, ⟨2, ![a, 1]⟩, ⟨2, ![a, 1]⟩]
      (⟨2, ![a, 6]⟩ : Shape) 1) (p : Fin a) (c : Fin 6) :
    concatenate (⟨2, ![a, 6]⟩ : Shape) 1
        [⟨(⟨2, ![a, 1]⟩ : Shape), x0⟩, ⟨(⟨2, ![a, 1]⟩ : Shape), x1⟩, ⟨(⟨2, ![a, 1]⟩ : Shape), x2⟩,
         ⟨(⟨2, ![a, 1]⟩ : Shape), x3⟩, ⟨(⟨2, ![a, 1]⟩ : Shape), x4⟩, ⟨(⟨2, ![a, 1]⟩ : Shape), x5⟩] h (ix2 p c)
      = (![x0, x1, x2, x3, x4, x5] c) (ix2 p (0 : Fin 1)) := by
  have hi : ∀ (c : Fin 6) (b : Fin (⟨2, ![a, 1]⟩ : Shape).rank),
      b.cast (rfl : (⟨2, ![a, 1]⟩ : Shape).rank = (⟨2, ![a, 6]⟩ : Shape).rank) ≠ 1 →
      ((ix2 p (0 : Fin 1)) b).val = ((ix2 p c) (b.cast rfl)).val := by
    intro c b hb
    match b, hb with
    | ⟨0, _⟩, _ => rfl
    | ⟨1, _⟩, hb => exact absurd rfl hb
  match c with
  | ⟨0, _⟩ =>
    refine concatenate_apply_piece (t := ⟨2, ![a, 6]⟩) 1 _ ?_ _ 0 ?_ ⟨2, ![a, 1]⟩ x0 ?_ rfl 0 ?_ (ix2 p 0) (hi _) ?_
    exacts [show (0 : ℕ) < 6 by decide, rfl, rfl, rfl]
  | ⟨1, _⟩ =>
    refine concatenate_apply_piece (t := ⟨2, ![a, 6]⟩) 1 _ ?_ _ 1 ?_ ⟨2, ![a, 1]⟩ x1 ?_ rfl 1 ?_ (ix2 p 0) (hi _) ?_
    exacts [show (1 : ℕ) < 6 by decide, rfl, rfl, rfl]
  | ⟨2, _⟩ =>
    refine concatenate_apply_piece (t := ⟨2, ![a, 6]⟩) 1 _ ?_ _ 2 ?_ ⟨2, ![a, 1]⟩ x2 ?_ rfl 2 ?_ (ix2 p 0) (hi _) ?_
    exacts [show (2 : ℕ) < 6 by decide, rfl, rfl, rfl]
  | ⟨3, _⟩ =>
    refine concatenate_apply_piece (t := ⟨2, ![a, 6]⟩) 1 _ ?_ _ 3 ?_ ⟨2, ![a, 1]⟩ x3 ?_ rfl 3 ?_ (ix2 p 0) (hi _) ?_
    exacts [show (3 : ℕ) < 6 by decide, rfl, rfl, rfl]
  | ⟨4, _⟩ =>
    refine concatenate_apply_piece (t := ⟨2, ![a, 6]⟩) 1 _ ?_ _ 4 ?_ ⟨2, ![a, 1]⟩ x4 ?_ rfl 4 ?_ (ix2 p 0) (hi _) ?_
    exacts [show (4 : ℕ) < 6 by decide, rfl, rfl, rfl]
  | ⟨5, _⟩ =>
    refine concatenate_apply_piece (t := ⟨2, ![a, 6]⟩) 1 _ ?_ _ 5 ?_ ⟨2, ![a, 1]⟩ x5 ?_ rfl 5 ?_ (ix2 p 0) (hi _) ?_
    exacts [show (5 : ℕ) < 6 by decide, rfl, rfl, rfl]

/-- The six feature columns of a column v, joined: at (p, c) feature c of the scalar v (p, 0). -/
theorem feat6_apply {a : ℕ} (v : FVec Ideal ⟨2, ![a, 1]⟩ .f32)
    (h : Shape.Concatenates [(⟨2, ![a, 1]⟩ : Shape), ⟨2, ![a, 1]⟩, ⟨2, ![a, 1]⟩, ⟨2, ![a, 1]⟩, ⟨2, ![a, 1]⟩, ⟨2, ![a, 1]⟩]
      (⟨2, ![a, 6]⟩ : Shape) 1) (p : Fin a) (c : Fin 6) :
    concatenate (⟨2, ![a, 6]⟩ : Shape) 1
        [⟨(⟨2, ![a, 1]⟩ : Shape), sin (mulf (broadcast ⟨2, ![a, 1]⟩ (Scalar.ofBits (F := Ideal) .f32 0x40490FDB#32)) v)⟩,
         ⟨(⟨2, ![a, 1]⟩ : Shape), sin (mulf (broadcast ⟨2, ![a, 1]⟩ (Scalar.ofBits (F := Ideal) .f32 0x40C90FDB#32)) v)⟩,
         ⟨(⟨2, ![a, 1]⟩ : Shape), sin (mulf (broadcast ⟨2, ![a, 1]⟩ (Scalar.ofBits (F := Ideal) .f32 0x41490FDB#32)) v)⟩,
         ⟨(⟨2, ![a, 1]⟩ : Shape), cos (mulf (broadcast ⟨2, ![a, 1]⟩ (Scalar.ofBits (F := Ideal) .f32 0x40490FDB#32)) v)⟩,
         ⟨(⟨2, ![a, 1]⟩ : Shape), cos (mulf (broadcast ⟨2, ![a, 1]⟩ (Scalar.ofBits (F := Ideal) .f32 0x40C90FDB#32)) v)⟩,
         ⟨(⟨2, ![a, 1]⟩ : Shape), cos (mulf (broadcast ⟨2, ![a, 1]⟩ (Scalar.ofBits (F := Ideal) .f32 0x41490FDB#32)) v)⟩] h (ix2 p c)
      = emb6 (v (ix2 p (0 : Fin 1))) c := by
  refine (concat6_apply _ _ _ _ _ _ h p c).trans ?_
  match c with
  | ⟨0, _⟩ => exact congrArg Ideal.sin (ang_zero _)
  | ⟨1, _⟩ => exact congrArg Ideal.sin (ang_one _)
  | ⟨2, _⟩ => exact congrArg Ideal.sin (ang_two _)
  | ⟨3, _⟩ => exact congrArg Ideal.cos (ang_zero _)
  | ⟨4, _⟩ => exact congrArg Ideal.cos (ang_one _)
  | ⟨5, _⟩ => exact congrArg Ideal.cos (ang_two _)

/-- Column c of the loaded block, as a [12288, 1] column, at (p, 0): the block at (p, c). -/
theorem col_apply (x0 : Vec Ideal S12288x3 .f32) (o : ℕ) (h : S12288x3.Slices ![0, o] S12288x1) (p : Fin 12288) (c : Fin 3)
    (hc : c.val = o) :
    extractStridedSlice S12288x1 ![0, o] (k0_pay2 (F := Ideal) x0) h (ix2 p (0 : Fin 1)) = x0 (ix2 p c) := by
  unfold k0_pay2
  rw [shapeCast_self]
  exact slice2_axis1_apply o x0 h p 0 c (by rw [hc]; rfl)

/-- The first hidden layer: at (p, q) it is h1 of row p. -/
theorem pay4_apply (P : Params) (x0 : Vec Ideal S12288x3 .f32) (p : Fin 12288) (q : Fin 64) :
    k0_pay4 (F := Ideal) x0 P.W1 P.b1 (ix2 p q) = h1 P (row x0 p) q := by
  unfold k0_pay4 h1
  refine (layer_apply _ rfl _ _ _ _ _ _ p q).trans ?_
  refine congrArg act (congrArg (fun h => lin h P.W1 P.b1 q) (funext fun j => ?_))
  refine (MidAxisRows.concat_axis1_of_eq (n := 12) rfl _ _ _ p j).trans ?_
  unfold emb12
  by_cases hj : j.val < 6
  · rw [dif_pos hj, dif_pos hj]
    exact (feat6_apply _ _ p ⟨j.val, hj⟩).trans (congrArg (fun s => emb6 s ⟨j.val, hj⟩) (col_apply x0 0 _ p 0 rfl))
  · rw [dif_neg hj, dif_neg hj]
    exact (feat6_apply _ _ p ⟨j.val - 6, by have := j.isLt; omega⟩).trans
      (congrArg (fun s => emb6 s ⟨j.val - 6, by have := j.isLt; omega⟩) (col_apply x0 1 _ p 1 rfl))

end Cert.Wave.KernelRow

end
-- ==== Proof.KernelHidden.lean ====
/-
  Hidden layers two to five of the block, read at an entry.

  From a [12288, 64] array whose row p is the first hidden layer of an input row, four dense layers of widths 128, 256, 128,
  64 follow, the first and third of them negated.  At (p, q) the result is the fifth hidden layer of that input row: each
  layer reads only row p of the layer below.
-/
import proofs.«120030_j10599979286805_2_alg».proof.Proof.Gen.KernelIdeal.Skeleton
import proofs.«120030_j10599979286805_2_alg».proof.Proof.KernelDense

noncomputable section

namespace Cert.Wave.KernelRow

open Idealize.ShloMosaic Idealize.ShloMosaic.ValueIdx Cert.KernelIdeal Cert.KernelIdeal.Gen

/-- Layers two to five: at (p, q) the fifth hidden layer of the row whose first hidden layer is row p of the operand. -/
theorem pay5_apply (P : Params) (x : Fin 3 → EReal) (v40 : FVec Ideal S12288x64 .f32) (p : Fin 12288)
    (hv : ∀ k, v40 (ix2 p k) = h1 P x k) (q : Fin 64) :
    k0_pay5 (F := Ideal) v40 P.W2 P.b2 P.W3 P.b3 P.W4 P.b4 P.W5 P.b5 (ix2 p q) = h5 P x q := by
  unfold k0_pay5
  refine (layer_apply _ rfl _ _ _ _ _ _ p q).trans ?_
  show _ = act (lin (h4 P x) P.W5 P.b5 q)
  refine congrArg act (congrArg (fun h => lin h P.W5 P.b5 q) (funext fun k4 => ?_))
  refine (negLayer_apply _ rfl _ _ _ _ _ _ p k4).trans ?_
  show _ = -(act (lin (h3 P x) P.W4 P.b4 k4))
  refine congrArg (fun z => -(act z)) (congrArg (fun h => lin h P.W4 P.b4 k4) (funext fun k3 => ?_))
  refine (layer_apply _ rfl _ _ _ _ _ _ p k3).trans ?_
  show _ = act (lin (h2 P x) P.W3 P.b3 k3)
  refine congrArg act (congrArg (fun h => lin h P.W3 P.b3 k3) (funext fun k2 => ?_))
  refine (negLayer_apply _ rfl _ _ _ _ _ _ p k2).trans ?_
  show _ = -(act (lin (h1 P x) P.W2 P.b2 k2))
  refine congrArg (fun z => -(act z)) (congrArg (fun h => lin h P.W2 P.b2 k2) (funext fun k1 => ?_))
  exact hv k1

end Cert.Wave.KernelRow

end
-- ==== Proof.LibColumnLayout.lean ====
/-
  Column layouts read at an index, and a row sum at the ideal instance.

  A sum over the last axis of an `[a, b]` array taken with the axis kept leaves a column `[a, 1]`. Three re-layings of such a
  column occur around it: the cast of a vector `[a]` to the column `[a, 1]`, the cast of a column `[a, 1]` to the row `[1, a]`
  (the same `a` numbers in the same row-major order), and the broadcast of a column `[a, 1]` along a new second extent to
  `[a, b]`. Each, read at an index, is the operand at the evident index: entry `(i, 0)` of the column is entry `i` of the vector,
  entry `(0, i)` of the row is entry `(i, 0)` of the column, and entry `(p, c)` of the broadcast is entry `(p, 0)` of the column.
  The host's `broadcast_in_dim` of a vector to a column along axis 0 reads the same way.

  On the extended reals a sum along the second axis of an `[a, b]` array, at row `p`, is the sum over `d` of the entries
  `(p, d)` — for a vector reduction and for the host's reduction from an initial value alike.
-/
import Idealize.ShloMosaic.Lib.ValueLayout
import Idealize.ShloMosaic.PureOps.Ideal.Laws

noncomputable section

namespace Cert.LibColumnLayout

open Idealize.ShloMosaic Idealize.ShloMosaic.ValueIdx

variable {α : Type}

/-! ## A vector as a column, a column as a row, a column broadcast along rows -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to the row `[1, a]` reads, at `(u, i)`, the column at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of an `[a]` array to the column `[a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-! ## A sum along the second axis, on the extended reals -/

/-- A vector reduction by addition along the second axis of an `[a, b]` array, at row `p`: the sum of that row. -/
theorem multiReduction_add_rows_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) : multiReduction .add [1] ⟨1, ![a]⟩ src acc h hφ hacc (ix1 p) = ∑ d : Fin b, src (ix2 p d) := by
  refine (Ideal.multiReduction_add_single src acc h hφ hacc (ix1 p)).trans ?_
  refine Finset.sum_congr rfl fun d _ => congrArg src ?_
  funext ax; apply Fin.ext
  match ax with
  | ⟨0, _⟩ => rfl
  | ⟨1, _⟩ => rfl

/-- The host's reduction by addition along the second axis from an initial value, at row `p`: the initial value plus the
    sum of that row. -/
theorem hostReduceAdd_rows_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ d : Fin b, x (ix2 p d) := by
  refine (Ideal.hostReduceAdd_single h' h x init (ix1 p)).trans ?_
  refine congrArg (init + ·) (Finset.sum_congr rfl fun d _ => congrArg x ?_)
  funext ax; apply Fin.ext
  match ax with
  | ⟨0, _⟩ => rfl
  | ⟨1, _⟩ => rfl

end Cert.LibColumnLayout

end
-- ==== Proof.KernelOut.lean ====
/-
  The last stage of the block, read at an entry.

  From the column t of the input ([12288, 1]) and the fifth hidden layer ([12288, 64]) the stage forms, row by row, the t
  branch — t·Wt1[0, q] + bt1[q] for the sixteen q (the [1, 16] weight laid out as a vector and as a row again, repeated over
  the rows; t repeated over the sixteen columns), its sine after multiplying by the π word, times Wt2[q, 0], summed over q
  by a reduction from the neutral word, made a column again, plus bt2[0] —, the last linear layer of the (x, y) branch, the
  product of the two columns, and the transpose of that [12288, 1] column into a [1, 12288] row.  At (0, r) the row holds the
  result of input row r.
-/
import Idealize.ShloMosaic.Lib.ValueLayout
import proofs.«120030_j10599979286805_2_alg».proof.Proof.Gen.KernelIdeal.Skeleton
import proofs.«120030_j10599979286805_2_alg».proof.Proof.LibColumnLayout
import proofs.«120030_j10599979286805_2_alg».proof.Proof.KernelDense

noncomputable section

namespace Cert.Wave.KernelRow

open Idealize.ShloMosaic Idealize.ShloMosaic.ValueIdx Cert.KernelIdeal Cert.KernelIdeal.Gen

/-- An [a, 1] column cast to the vector [a] reads, at i, the column at (i, 0). -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The last stage at (0, r): the result of the row whose t is the t column at r and whose fifth hidden layer is row r of
    the operand. -/
theorem pay1_apply (P : Params) (x : Fin 3 → EReal) (v4 : FVec Ideal S12288x1 .f32) (v80 : FVec Ideal S12288x64 .f32)
    (r : Fin 12288) (ht : v4 (ix2 r (0 : Fin 1)) = x 2) (hv : ∀ k, v80 (ix2 r k) = h5 P x k) :
    k0_pay1 (F := Ideal) v4 v80 P.W6 P.b6 P.Wt1 P.bt1 P.Wt2 P.bt2 (ix2 (0 : Fin 1) r) = rowOut P x := by
  unfold k0_pay1
  refine (transpose_ix2_apply _ _ (0 : Fin 1) r).trans ?_
  refine (mulf_apply _ _ _).trans ?_
  unfold rowOut
  refine congrArg₂ (· * ·) ?_ ?_
  · refine (addf_apply _ _ _).trans ?_
    unfold tOut
    refine congrArg₂ (· + ·) ?_ ?_
    · refine (LibColumnLayout.shapeCast_a_a1_apply _ _ r 0).trans ?_
      refine (LibColumnLayout.multiReduction_add_rows_apply _ _ _ _ _ r).trans ?_
      refine Finset.sum_congr rfl fun d _ => ?_
      refine (mulf_apply _ _ _).trans ?_
      refine congrArg₂ (· * ·) ?_ ?_
      · refine (act_apply _ _).trans ?_
        unfold th
        refine congrArg act ?_
        refine (addf_apply _ _ _).trans ?_
        refine congrArg₂ (· + ·) ?_ ?_
        · refine (mulf_apply _ _ _).trans ?_
          refine congrArg₂ (· * ·) ?_ ?_
          · exact (LibColumnLayout.broadcastTo_a1_ab_apply _ _ r d).trans ht
          · refine (broadcastTo_1b_ab_apply _ _ r d).trans ?_
            refine (shapeCast_a_1a_apply _ _ 0 d).trans ?_
            exact shapeCast_1a_a_apply _ _ d
        · refine (broadcastTo_1b_ab_apply _ _ r d).trans ?_
          exact shapeCast_a_1a_apply _ _ 0 d
      · refine (broadcastTo_1b_ab_apply _ _ r d).trans ?_
        refine (shapeCast_a_1a_apply _ _ 0 d).trans ?_
        exact shapeCast_a1_a_apply _ _ d
    · refine (broadcastTo_1b_ab_apply _ _ r 0).trans ?_
      exact shapeCast_a_1a_apply _ _ 0 0
  · refine (pre_apply _ rfl _ _ _ _ _ _ r 0).trans ?_
    exact congrArg (fun h => lin h P.W6 P.b6 0) (funext hv)

end Cert.Wave.KernelRow

end
-- ==== Proof.KernelRow.lean ====
/-
  The block's result at an entry.

  The body of the kernel is one term over its loaded blocks: the t column and the first hidden layer from the input block, the
  hidden layers two to five, and the last stage.  At (0, r) of the [1, 12288] result it is the row function of the
  specification on row r of the input block, with the loaded weights and biases as the parameters.
-/
import proofs.«120030_j10599979286805_2_alg».proof.Proof.KernelEmbed
import proofs.«120030_j10599979286805_2_alg».proof.Proof.KernelHidden
import proofs.«120030_j10599979286805_2_alg».proof.Proof.KernelOut

noncomputable section

namespace Cert.Wave.KernelRow

open Idealize.ShloMosaic Idealize.ShloMosaic.ValueIdx Cert.KernelIdeal Cert.KernelIdeal.Gen

/-- The kernel's stored row at (0, r) is the result of input row r. -/
theorem pay_apply
    (x0 : Vec Ideal S12288x3 .f32) (x1 : Vec Ideal S12x64 .f32) (x2 : Vec Ideal S64 .f32) (x3 : Vec Ideal S64x128 .f32)
    (x4 : Vec Ideal S128 .f32) (x5 : Vec Ideal S128x256 .f32) (x6 : Vec Ideal S256 .f32) (x7 : Vec Ideal S256x128 .f32)
    (x8 : Vec Ideal S128 .f32) (x9 : Vec Ideal S128x64 .f32) (x10 : Vec Ideal S64 .f32) (x11 : Vec Ideal S64x1 .f32)
    (x12 : Vec Ideal S1 .f32) (x13 : Vec Ideal S1x16 .f32) (x14 : Vec Ideal S16 .f32) (x15 : Vec Ideal S16x1 .f32)
    (x16 : Vec Ideal S1 .f32) (r : Fin 12288) :
    k0_pay1 (F := Ideal) (k0_pay3 x0) (k0_pay5 (k0_pay4 x0 x1 x2) x3 x4 x5 x6 x7 x8 x9 x10) x11 x12 x13 x14 x15 x16
        (ValueIdx.ix2 (0 : Fin 1) r)
      = Cert.Wave.rowOut ⟨x1, x2, x3, x4, x5, x6, x7, x8, x9, x10, x11, x12, x13, x14, x15, x16⟩
          (fun j => x0 (ValueIdx.ix2 r j)) :=
  pay1_apply ⟨x1, x2, x3, x4, x5, x6, x7, x8, x9, x10, x11, x12, x13, x14, x15, x16⟩ (fun j => x0 (ix2 r j))
    (k0_pay3 x0) (k0_pay5 (k0_pay4 x0 x1 x2) x3 x4 x5 x6 x7 x8 x9 x10) r
    (col_apply x0 2 slices_S12288x3_o0_2_S12288x1 r 2 rfl)
    (fun k => pay5_apply ⟨x1, x2, x3, x4, x5, x6, x7, x8, x9, x10, x11, x12, x13, x14, x15, x16⟩ (fun j => x0 (ix2 r j))
      (k0_pay4 x0 x1 x2) r
      (fun k' => pay4_apply ⟨x1, x2, x3, x4, x5, x6, x7, x8, x9, x10, x11, x12, x13, x14, x15, x16⟩ x0 r k') k)

end Cert.Wave.KernelRow

end
-- ==== Proof.RefTerm.lean ====
/-
  The value the reference program leaves in its result, as a composition of named stages over arbitrary argument
  arrays and any float type.

  A column of the [1000000, 3] input is scaled by the word of π, multiplied against the table of the three
  frequencies, and its sines and cosines are laid side by side (six features); the features of the first two
  columns side by side are the twelve inputs of five dense layers x ↦ ±sin (π · (x·W + b)) and a last linear
  one; the third column goes through one such layer of width 16 and a linear one; the result is the product of
  the two [1000000, 1] columns.
-/
import proofs.«120030_j10599979286805_2_alg».proof.Proof.Gen.ReferenceIdeal

noncomputable section

namespace Cert.Wave.Ref

open Cert.ReferenceIdeal Cert.ReferenceIdeal.Gen Idealize.ShloMosaic

/-- An f32 array of shape S. -/
abbrev Arr (F : FTy → Type) (S : Shape) : Type := (⟨S, .f32⟩ : BufTy).Contents (Elt F)

variable {F : FTy → Type} [FloatOps F]

/-- The table of the three frequency words. -/
def freqs : Arr F S3 := fun i => FloatOps.ofBits .f32 (lit0 (S3.rowMajor i))

/-- The word of π at every index of a shape. -/
def piAll (S : Shape) (h : S_.BroadcastsInDim S (![] : Fin 0 → Fin S.rank)) : Arr F S :=
  broadcastInDim S ![] h (constant S_ .f32 0x40490FDB#32)

/-- Column j of the input as a [1000000, 1] array. -/
def col0 (x : Arr F S1000000x3) : Arr F S1000000x1 := extractStridedSlice S1000000x1 ![0, 0] x slices_S1000000x3_S1000000x1_0_0
def col1 (x : Arr F S1000000x3) : Arr F S1000000x1 := extractStridedSlice S1000000x1 ![0, 1] x slices_S1000000x3_S1000000x1_0_1
def col2 (x : Arr F S1000000x3) : Arr F S1000000x1 := extractStridedSlice S1000000x1 ![0, 2] x slices_S1000000x3_S1000000x1_0_2

/-- The three angles of a column: (π·s) against the frequency table. -/
def angles (s : Arr F S1000000x1) : Arr F S1000000x3 :=
  mulf (broadcastInDim S1000000x3 ![0, 1] bcast_S1000000x1_S1000000x3_0_1 (mulf (piAll S1000000x1 bcast_S_S1000000x1) s))
    (broadcastInDim S1000000x3 ![0, 1] bcast_S1x3_S1000000x3_0_1 (broadcastInDim S1x3 ![1] bcast_S3_S1x3_1 freqs))

/-- Sines then cosines of a [1000000, 3] array, side by side. -/
def sinCos (z : Arr F S1000000x3) : Arr F S1000000x6 :=
  concatenate S1000000x6 1 [⟨S1000000x3, Host.sin z⟩, ⟨S1000000x3, Host.cos z⟩] concatenates_S1000000x3_S1000000x3_S1000000x6_d1

/-- The twelve features: those of column 0, then those of column 1. -/
def feats (x : Arr F S1000000x3) : Arr F S1000000x12 :=
  concatenate S1000000x12 1 [⟨S1000000x6, sinCos (angles (col0 x))⟩, ⟨S1000000x6, sinCos (angles (col1 x))⟩]
    concatenates_S1000000x6_S1000000x6_S1000000x12_d1

/-- A linear layer x·W + b, the bias sent through [N] → [1, N] → [M, N]. -/
def dense {M K N : Nat} (D : DotDims ⟨2, ![M, K]⟩ ⟨2, ![K, N]⟩ ⟨2, ![M, N]⟩)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (x : Arr F ⟨2, ![M, K]⟩) (W : Arr F ⟨2, ![K, N]⟩) (b : Arr F ⟨1, ![N]⟩) : Arr F ⟨2, ![M, N]⟩ :=
  addf (Host.dotGeneral D none x W) (broadcastInDim ⟨2, ![M, N]⟩ ![0, 1] h2 (broadcastInDim ⟨2, ![1, N]⟩ ![1] h1 b))

/-- The activation sin (π · z) at every entry. -/
def actv (S : Shape) (h : S_.BroadcastsInDim S (![] : Fin 0 → Fin S.rank)) (z : Arr F S) : Arr F S :=
  Host.sin (mulf (piAll S h) z)

/-- The five hidden layers of the first branch. -/
def hid1 (x : Arr F S1000000x3) (W1 : Arr F S12x64) (b1 : Arr F S64) : Arr F S1000000x64 :=
  actv S1000000x64 bcast_S_S1000000x64
    (dense dot_S1000000x12_S12x64_S1000000x64_1_0_0_1_n_n bcast_S64_S1x64_1 bcast_S1x64_S1000000x64_0_1 (feats x) W1 b1)
def hid2 (y : Arr F S1000000x64) (W2 : Arr F S64x128) (b2 : Arr F S128) : Arr F S1000000x128 :=
  Host.negf (actv S1000000x128 bcast_S_S1000000x128
    (dense dot_S1000000x64_S64x128_S1000000x128_1_0_0_1_n_n bcast_S128_S1x128_1 bcast_S1x128_S1000000x128_0_1 y W2 b2))
def hid3 (y : Arr F S1000000x128) (W3 : Arr F S128x256) (b3 : Arr F S256) : Arr F S1000000x256 :=
  actv S1000000x256 bcast_S_S1000000x256
    (dense dot_S1000000x128_S128x256_S1000000x256_1_0_0_1_n_n bcast_S256_S1x256_1 bcast_S1x256_S1000000x256_0_1 y W3 b3)
def hid4 (y : Arr F S1000000x256) (W4 : Arr F S256x128) (b4 : Arr F S128) : Arr F S1000000x128 :=
  Host.negf (actv S1000000x128 bcast_S_S1000000x128
    (dense dot_S1000000x256_S256x128_S1000000x128_1_0_0_1_n_n bcast_S128_S1x128_1 bcast_S1x128_S1000000x128_0_1 y W4 b4))
def hid5 (y : Arr F S1000000x128) (W5 : Arr F S128x64) (b5 : Arr F S64) : Arr F S1000000x64 :=
  actv S1000000x64 bcast_S_S1000000x64
    (dense dot_S1000000x128_S128x64_S1000000x64_1_0_0_1_n_n bcast_S64_S1x64_1 bcast_S1x64_S1000000x64_0_1 y W5 b5)

/-- The first branch's [1000000, 1] column. -/
def xyCol (x : Arr F S1000000x3) (W1 : Arr F S12x64) (b1 : Arr F S64) (W2 : Arr F S64x128) (b2 : Arr F S128)
    (W3 : Arr F S128x256) (b3 : Arr F S256) (W4 : Arr F S256x128) (b4 : Arr F S128) (W5 : Arr F S128x64) (b5 : Arr F S64)
    (W6 : Arr F S64x1) (b6 : Arr F S1) : Arr F S1000000x1 :=
  dense dot_S1000000x64_S64x1_S1000000x1_1_0_0_1_n_n bcast_S1_S1x1_1 bcast_S1x1_S1000000x1_0_1
    (hid5 (hid4 (hid3 (hid2 (hid1 x W1 b1) W2 b2) W3 b3) W4 b4) W5 b5) W6 b6

/-- The second branch's hidden layer. -/
def tHid (x : Arr F S1000000x3) (Wt1 : Arr F S1x16) (bt1 : Arr F S16) : Arr F S1000000x16 :=
  actv S1000000x16 bcast_S_S1000000x16
    (dense dot_S1000000x1_S1x16_S1000000x16_1_0_0_1_n_n bcast_S16_S1x16_1 bcast_S1x16_S1000000x16_0_1 (col2 x) Wt1 bt1)

/-- The second branch's [1000000, 1] column. -/
def tCol (x : Arr F S1000000x3) (Wt1 : Arr F S1x16) (bt1 : Arr F S16) (Wt2 : Arr F S16x1) (bt2 : Arr F S1) : Arr F S1000000x1 :=
  dense dot_S1000000x16_S16x1_S1000000x1_1_0_0_1_n_n bcast_S1_S1x1_1 bcast_S1x1_S1000000x1_0_1 (tHid x Wt1 bt1) Wt2 bt2

/-- The whole result. -/
def refOut (x : Arr F S1000000x3) (W1 : Arr F S12x64) (b1 : Arr F S64) (W2 : Arr F S64x128) (b2 : Arr F S128)
    (W3 : Arr F S128x256) (b3 : Arr F S256) (W4 : Arr F S256x128) (b4 : Arr F S128) (W5 : Arr F S128x64) (b5 : Arr F S64)
    (W6 : Arr F S64x1) (b6 : Arr F S1) (Wt1 : Arr F S1x16) (bt1 : Arr F S16) (Wt2 : Arr F S16x1) (bt2 : Arr F S1) :
    Arr F S1000000x1 :=
  mulf (tCol x Wt1 bt1 Wt2 bt2) (xyCol x W1 b1 W2 b2 W3 b3 W4 b4 W5 b5 W6 b6)

end Cert.Wave.Ref

end
-- ==== Proof.RefLayout.lean ====
/-
  Layout operations of the reference read at an index, over arbitrary extents.

  A scalar sent to every index of a shape; a [N] row sent through [1, N] to every row of [M, N]; an [M, 1] column
  sent to every column of [M, N]; column c of an [M, 3] array as an [M, 1] array.
-/
import Idealize.ShloMosaic.Lib.Pipeline.Value
import Idealize.ShloMosaic.Lib.ValueIdx

noncomputable section

namespace Cert.Wave.Ref

open Idealize.ShloMosaic Idealize.ShloMosaic.ValueIdx

variable {α : Type}

/-- A rank-0 value broadcast to a shape reads, at every index, the value. -/
theorem bcast_scalar_apply (S : Shape) (h : (⟨0, ![]⟩ : Shape).BroadcastsInDim S (![] : Fin 0 → Fin S.rank))
    (x : (⟨0, ![]⟩ : Shape).Idx → α) (i : S.Idx) : broadcastInDim S ![] h x i = x ix0 :=
  broadcastInDim_apply _ h x i ix0 fun a => a.elim0

/-- A [N] row sent to [1, N] reads, at (u, q), the row at q. -/
theorem bcast_row1_apply {N : Nat} (h : (⟨1, ![N]⟩ : Shape).BroadcastsInDim ⟨2, ![1, N]⟩ (![1] : Fin 1 → Fin 2))
    (b : (⟨1, ![N]⟩ : Shape).Idx → α) (u : Fin 1) (q : Fin N) :
    broadcastInDim ⟨2, ![1, N]⟩ ![1] h b (ix2 u q) = b (ix1 q) := by
  refine broadcastInDim_apply _ h b (ix2 u q) (ix1 q) fun a => ?_
  match a with
  | ⟨0, _⟩ =>
    show q.val = if N = 1 then 0 else q.val
    split
    · have := q.isLt; omega
    · rfl

/-- A [1, N] row sent to every row of [M, N] reads, at (p, q), the row at (0, q). -/
theorem bcast_rows_apply {M N : Nat} (h : (⟨2, ![1, N]⟩ : Shape).BroadcastsInDim ⟨2, ![M, N]⟩ (![0, 1] : Fin 2 → Fin 2))
    (b : (⟨2, ![1, N]⟩ : Shape).Idx → α) (p : Fin M) (q : Fin N) :
    broadcastInDim ⟨2, ![M, N]⟩ ![0, 1] h b (ix2 p q) = b (ix2 (0 : Fin 1) q) := by
  refine broadcastInDim_apply _ h b (ix2 p q) (ix2 (0 : Fin 1) q) fun a => ?_
  match a with
  | ⟨0, _⟩ => rfl
  | ⟨1, _⟩ =>
    show q.val = if N = 1 then 0 else q.val
    split
    · have := q.isLt; omega
    · rfl

/-- An [M, 1] column sent to every column of [M, N] reads, at (p, q), the column at (p, 0). -/
theorem bcast_cols_apply {M N : Nat} (h : (⟨2, ![M, 1]⟩ : Shape).BroadcastsInDim ⟨2, ![M, N]⟩ (![0, 1] : Fin 2 → Fin 2))
    (v : (⟨2, ![M, 1]⟩ : Shape).Idx → α) (p : Fin M) (q : Fin N) :
    broadcastInDim ⟨2, ![M, N]⟩ ![0, 1] h v (ix2 p q) = v (ix2 p (0 : Fin 1)) := by
  refine broadcastInDim_apply _ h v (ix2 p q) (ix2 p (0 : Fin 1)) fun a => ?_
  match a with
  | ⟨0, _⟩ =>
    show p.val = if M = 1 then 0 else p.val
    split
    · have := p.isLt; omega
    · rfl
  | ⟨1, _⟩ => rfl

/-- Column c of an [M, K] array, sliced out as an [M, 1] array, reads at (p, 0) the array at (p, c). -/
theorem slice_col_apply {M K : Nat} (c : Fin K) (x : (⟨2, ![M, K]⟩ : Shape).Idx → α)
    (h : (⟨2, ![M, K]⟩ : Shape).Slices ![0, c.val] ⟨2, ![M, 1]⟩) (p : Fin M) (u : Fin 1) :
    extractStridedSlice ⟨2, ![M, 1]⟩ ![0, c.val] x h (ix2 p u) = x (ix2 p c) := by
  refine extractStridedSlice_apply _ x h (ix2 p u) (ix2 p c) fun a => ?_
  match a with
  | ⟨0, _⟩ => show p.val = 0 + p.val; omega
  | ⟨1, _⟩ => show c.val = c.val + u.val; omega

end Cert.Wave.Ref

end
-- ==== Proof.RefStages.lean ====
/-
  The stages of the reference's value read at an index, at the ideal instance.

  Each stage, applied to arbitrary arrays, is at row n the corresponding function of the specification applied to
  row n of its operand: the columns of the input, the angles (π·s)·f_q, the six features of a column, the twelve
  of a row, a linear layer as the sum over its contracted axis plus the bias, the activation sin (π·z).
-/
import proofs.«120030_j10599979286805_2_alg».proof.Proof.RefTerm
import proofs.«120030_j10599979286805_2_alg».proof.Proof.RefLayout
import proofs.«120030_j10599979286805_2_alg».proof.Proof.Spec
import proofs.«120030_j10599979286805_2_alg».proof.Proof.LibPlainMatmul
import proofs.«120030_j10599979286805_2_alg».proof.Proof.LibMidAxisRows

noncomputable section

namespace Cert.Wave.Ref

open Cert.ReferenceIdeal Cert.ReferenceIdeal.Gen Idealize.ShloMosaic Idealize.ShloMosaic.ValueIdx

/-- The host's sine, cosine and negation at an index. -/
theorem hostSin_apply {S : Shape} (z : Arr Ideal S) (i : S.Idx) : Host.sin (F := Ideal) (φ := .f32) z i = Ideal.sin (z i) := rfl
theorem hostCos_apply {S : Shape} (z : Arr Ideal S) (i : S.Idx) : Host.cos (F := Ideal) (φ := .f32) z i = Ideal.cos (z i) := rfl
theorem hostNegf_apply {S : Shape} (z : Arr Ideal S) (i : S.Idx) : Host.negf (F := Ideal) (φ := .f32) z i = -(z i) := rfl

/-- The table's word at position q. -/
theorem lit0_rowMajor (q : Fin 3) : lit0 (S3.rowMajor (ix1 q)) = Cert.Wave.frW q := by
  have h : (show Fin 3 from S3.rowMajor (ix1 q)) = q := Fin.ext (Shape.rowMajor_val_one _)
  refine (congrArg lit0 h).trans ?_
  match q with
  | ⟨0, _⟩ => rfl
  | ⟨1, _⟩ => rfl
  | ⟨2, _⟩ => rfl

/-- The frequency table at q is the q-th frequency. -/
theorem freqs_apply (q : Fin 3) : freqs (F := Ideal) (ix1 q) = Cert.Wave.fr q :=
  congrArg (Ideal.ofBits .f32) (lit0_rowMajor q)

/-- The word of π at every index. -/
theorem piAll_apply (S : Shape) (h : S_.BroadcastsInDim S (![] : Fin 0 → Fin S.rank)) (i : S.Idx) :
    piAll (F := Ideal) S h i = Cert.Wave.piE :=
  bcast_scalar_apply S h _ i

/-- The three columns of the input. -/
theorem col0_apply (x : Arr Ideal S1000000x3) (n : Fin 1000000) (u : Fin 1) : col0 x (ix2 n u) = x (ix2 n 0) :=
  slice_col_apply (0 : Fin 3) x _ n u
theorem col1_apply (x : Arr Ideal S1000000x3) (n : Fin 1000000) (u : Fin 1) : col1 x (ix2 n u) = x (ix2 n 1) :=
  slice_col_apply (1 : Fin 3) x _ n u
theorem col2_apply (x : Arr Ideal S1000000x3) (n : Fin 1000000) (u : Fin 1) : col2 x (ix2 n u) = x (ix2 n 2) :=
  slice_col_apply (2 : Fin 3) x _ n u

/-- The angles of a column at (n, q): (π·s_n)·f_q. -/
theorem angles_apply (s : Arr Ideal S1000000x1) (n : Fin 1000000) (q : Fin 3) :
    angles s (ix2 n q) = Cert.Wave.ang (s (ix2 n 0)) q := by
  unfold angles Cert.Wave.ang
  rw [mulf_apply, bcast_cols_apply, mulf_apply, piAll_apply, bcast_rows_apply, bcast_row1_apply, freqs_apply]

/-- Sines then cosines side by side, at (n, j). -/
theorem sinCos_apply (z : Arr Ideal S1000000x3) (n : Fin 1000000) (j : Fin 6) :
    sinCos z (ix2 n j) = if h : j.val < 3 then Ideal.sin (z (ix2 n ⟨j.val, h⟩))
      else Ideal.cos (z (ix2 n ⟨j.val - 3, by have := j.isLt; omega⟩)) := by
  unfold sinCos
  exact Idealize.ShloMosaic.MidAxisRows.concat_axis1_of_eq (b1 := 3) (b2 := 3) (n := 6) rfl _ _ _ n j

/-- The six features of a column at row n. -/
theorem sinCos_angles_apply (s : Arr Ideal S1000000x1) (n : Fin 1000000) (j : Fin 6) :
    sinCos (angles s) (ix2 n j) = Cert.Wave.emb6 (s (ix2 n 0)) j := by
  rw [sinCos_apply]
  unfold Cert.Wave.emb6
  by_cases h : j.val < 3
  · rw [dif_pos h, dif_pos h, angles_apply]
  · rw [dif_neg h, dif_neg h, angles_apply]

/-- The twelve features of row n. -/
theorem feats_apply (x : Arr Ideal S1000000x3) (n : Fin 1000000) (j : Fin 12) :
    feats x (ix2 n j) = Cert.Wave.emb12 (fun c => x (ix2 n c)) j := by
  unfold feats Cert.Wave.emb12
  rw [Idealize.ShloMosaic.MidAxisRows.concat_axis1_of_eq (b1 := 6) (b2 := 6) (n := 12) rfl]
  by_cases h : j.val < 6
  · rw [dif_pos h, dif_pos h, sinCos_angles_apply, col0_apply]
  · rw [dif_neg h, dif_neg h, sinCos_angles_apply, col1_apply]

/-- A linear layer at (p, q), given its operand's row p: the specification's linear layer on that row. -/
theorem dense_apply {M K N : Nat} (D : DotDims ⟨2, ![M, K]⟩ ⟨2, ![K, N]⟩ ⟨2, ![M, N]⟩) (hD : D = DotDims.plain M K N)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (x : Arr Ideal ⟨2, ![M, K]⟩) (W : Arr Ideal ⟨2, ![K, N]⟩) (b : Arr Ideal ⟨1, ![N]⟩) (p : Fin M)
    (g : Fin K → EReal) (hx : ∀ k, x (ix2 p k) = g k) (q : Fin N) :
    dense D h1 h2 x W b (ix2 p q) = Cert.Wave.lin g W b q := by
  subst hD
  unfold dense Cert.Wave.lin
  rw [addf_apply, bcast_rows_apply, bcast_row1_apply]
  refine congrArg (· + b (ix1 q)) ?_
  refine (Idealize.ShloMosaic.PlainMatmul.plain_dotGeneral_apply M K N none _ x W p q).trans ?_
  exact Finset.sum_congr rfl fun k _ => by rw [hx k]

/-- The activation at an index. -/
theorem actv_apply (S : Shape) (h : S_.BroadcastsInDim S (![] : Fin 0 → Fin S.rank)) (z : Arr Ideal S) (i : S.Idx) :
    actv S h z i = Cert.Wave.act (z i) := by
  unfold actv Cert.Wave.act
  rw [hostSin_apply, mulf_apply, piAll_apply]

end Cert.Wave.Ref

end
-- ==== Proof.RefRun.lean ====
/-
  The reference program's run.

  Its main function is the sequence of its 84 host operations; run from any memory with zero counters, every
  weakly fair execution terminates with the result buffer at the composed value of the argument buffers' launch
  contents (the stages of the value composed in the program's order) and with every argument unchanged.
-/
import proofs.«120030_j10599979286805_2_alg».proof.Proof.RefTerm
import Idealize.ShloMosaic.Lib.StableHlo.Run

noncomputable section

namespace Cert.Wave.Ref

open Cert.ReferenceIdeal Cert.ReferenceIdeal.Gen Idealize.ShloMosaic Idealize.ShloMosaic.TcCoe Idealize.SL.Sem Idealize.ShloMosaic.StableHlo

variable {F : FTy → Type} [FloatOps F]

/-- The main function's 84 operations, in order. -/
abbrev ops : List (HloOp τ sig (Elt F)) :=
  [ StableHlo.nullary main_cst (fun i => FloatOps.ofBits .f32 (lit0 (S3.rowMajor i))),
    StableHlo.unary main_arg0 main_v0 ((extractStridedSlice S1000000x1 ![0, 0] · slices_S1000000x3_S1000000x1_0_0) : (⟨S1000000x3, .f32⟩ : BufTy).Contents (Elt F) → (⟨S1000000x1, .f32⟩ : BufTy).Contents (Elt F)),
    StableHlo.nullary main_cst_0 (constant S_ .f32 0x40490FDB#32),
    StableHlo.unary main_cst_0 main_v1 (broadcastInDim S1000000x1 ![] bcast_S_S1000000x1 : (⟨S_, .f32⟩ : BufTy).Contents (Elt F) → (⟨S1000000x1, .f32⟩ : BufTy).Contents (Elt F)),
    StableHlo.binary main_v1 main_v0 main_v2 (mulf : (⟨S1000000x1, .f32⟩ : BufTy).Contents (Elt F) → (⟨S1000000x1, .f32⟩ : BufTy).Contents (Elt F) → (⟨S1000000x1, .f32⟩ : BufTy).Contents (Elt F)),
    StableHlo.unary main_cst main_v3 (broadcastInDim S1x3 ![1] bcast_S3_S1x3_1 : (⟨S3, .f32⟩ : BufTy).Contents (Elt F) → (⟨S1x3, .f32⟩ : BufTy).Contents (Elt F)),
    StableHlo.unary main_v2 main_v4 (broadcastInDim S1000000x3 ![0, 1] bcast_S1000000x1_S1000000x3_0_1 : (⟨S1000000x1, .f32⟩ : BufTy).Contents (Elt F) → (⟨S1000000x3, .f32⟩ : BufTy).Contents (Elt F)),
    StableHlo.unary main_v3 main_v5 (broadcastInDim S1000000x3 ![0, 1] bcast_S1x3_S1000000x3_0_1 : (⟨S1x3, .f32⟩ : BufTy).Contents (Elt F) → (⟨S1000000x3, .f32⟩ : BufTy).Contents (Elt F)),
    StableHlo.binary main_v4 main_v5 main_v6 (mulf : (⟨S1000000x3, .f32⟩ : BufTy).Contents (Elt F) → (⟨S1000000x3, .f32⟩ : BufTy).Contents (Elt F) → (⟨S1000000x3, .f32⟩ : BufTy).Contents (Elt F)),
    StableHlo.unary main_v6 main_v7 (Host.sin : (⟨S1000000x3, .f32⟩ : BufTy).Contents (Elt F) → (⟨S1000000x3, .f32⟩ : BufTy).Contents (Elt F)),
    StableHlo.unary main_v6 main_v8 (Host.cos : (⟨S1000000x3, .f32⟩ : BufTy).Contents (Elt F) → (⟨S1000000x3, .f32⟩ : BufTy).Contents (Elt F)),
    StableHlo.binary main_v7 main_v8 main_v9 ((fun a b => concatenate S1000000x6 1 [⟨S1000000x3, a⟩, ⟨S1000000x3, b⟩] concatenates_S1000000x3_S1000000x3_S1000000x6_d1) : (⟨S1000000x3, .f32⟩ : BufTy).Contents (Elt F) → (⟨S1000000x3, .f32⟩ : BufTy).Contents (Elt F) → (⟨S1000000x6, .f32⟩ : BufTy).Contents (Elt F)),
    StableHlo.unary main_arg0 main_v10 ((extractStridedSlice S1000000x1 ![0, 1] · slices_S1000000x3_S1000000x1_0_1) : (⟨S1000000x3, .f32⟩ : BufTy).Contents (Elt F) → (⟨S1000000x1, .f32⟩ : BufTy).Contents (Elt F)),
    StableHlo.nullary main_cst_1 (constant S_ .f32 0x40490FDB#32),
    StableHlo.unary main_cst_1 main_v11 (broadcastInDim S1000000x1 ![] bcast_S_S1000000x1 : (⟨S_, .f32⟩ : BufTy).Contents (Elt F) → (⟨S1000000x1, .f32⟩ : BufTy).Contents (Elt F)),
    StableHlo.binary main_v11 main_v10 main_v12 (mulf : (⟨S1000000x1, .f32⟩ : BufTy).Contents (Elt F) → (⟨S1000000x1, .f32⟩ : BufTy).Contents (Elt F) → (⟨S1000000x1, .f32⟩ : BufTy).Contents (Elt F)),
    StableHlo.unary main_cst main_v13 (broadcastInDim S1x3 ![1] bcast_S3_S1x3_1 : (⟨S3, .f32⟩ : BufTy).Contents (Elt F) → (⟨S1x3, .f32⟩ : BufTy).Contents (Elt F)),
    StableHlo.unary main_v12 main_v14 (broadcastInDim S1000000x3 ![0, 1] bcast_S1000000x1_S1000000x3_0_1 : (⟨S1000000x1, .f32⟩ : BufTy).Contents (Elt F) → (⟨S1000000x3, .f32⟩ : BufTy).Contents (Elt F)),
    StableHlo.unary main_v13 main_v15 (broadcastInDim S1000000x3 ![0, 1] bcast_S1x3_S1000000x3_0_1 : (⟨S1x3, .f32⟩ : BufTy).Contents (Elt F) → (⟨S1000000x3, .f32⟩ : BufTy).Contents (Elt F)),
    StableHlo.binary main_v14 main_v15 main_v16 (mulf : (⟨S1000000x3, .f32⟩ : BufTy).Contents (Elt F) → (⟨S1000000x3, .f32⟩ : BufTy).Contents (Elt F) → (⟨S1000000x3, .f32⟩ : BufTy).Contents (Elt F)),
    StableHlo.unary main_v16 main_v17 (Host.sin : (⟨S1000000x3, .f32⟩ : BufTy).Contents (Elt F) → (⟨S1000000x3, .f32⟩ : BufTy).Contents (Elt F)),
    StableHlo.unary main_v16 main_v18 (Host.cos : (⟨S1000000x3, .f32⟩ : BufTy).Contents (Elt F) → (⟨S1000000x3, .f32⟩ : BufTy).Contents (Elt F)),
    StableHlo.binary main_v17 main_v18 main_v19 ((fun a b => concatenate S1000000x6 1 [⟨S1000000x3, a⟩, ⟨S1000000x3, b⟩] concatenates_S1000000x3_S1000000x3_S1000000x6_d1) : (⟨S1000000x3, .f32⟩ : BufTy).Contents (Elt F) → (⟨S1000000x3, .f32⟩ : BufTy).Contents (Elt F) → (⟨S1000000x6, .f32⟩ : BufTy).Contents (Elt F)),
    StableHlo.unary main_arg0 main_v20 ((extractStridedSlice S1000000x1 ![0, 2] · slices_S1000000x3_S1000000x1_0_2) : (⟨S1000000x3, .f32⟩ : BufTy).Contents (Elt F) → (⟨S1000000x1, .f32⟩ : BufTy).Contents (Elt F)),
    StableHlo.binary main_v9 main_v19 main_v21 ((fun a b => concatenate S1000000x12 1 [⟨S1000000x6, a⟩, ⟨S1000000x6, b⟩] concatenates_S1000000x6_S1000000x6_S1000000x12_d1) : (⟨S1000000x6, .f32⟩ : BufTy).Contents (Elt F) → (⟨S1000000x6, .f32⟩ : BufTy).Contents (Elt F) → (⟨S1000000x12, .f32⟩ : BufTy).Contents (Elt F)),
    StableHlo.binary main_v21 main_arg1 main_v22 ((fun l r => Host.dotGeneral dot_S1000000x12_S12x64_S1000000x64_1_0_0_1_n_n none l r) : (⟨S1000000x12, .f32⟩ : BufTy).Contents (Elt F) → (⟨S12x64, .f32⟩ : BufTy).Contents (Elt F) → (⟨S1000000x64, .f32⟩ : BufTy).Contents (Elt F)),
    StableHlo.unary main_arg2 main_v23 (broadcastInDim S1x64 ![1] bcast_S64_S1x64_1 : (⟨S64, .f32⟩ : BufTy).Contents (Elt F) → (⟨S1x64, .f32⟩ : BufTy).Contents (Elt F)),
    StableHlo.unary main_v23 main_v24 (broadcastInDim S1000000x64 ![0, 1] bcast_S1x64_S1000000x64_0_1 : (⟨S1x64, .f32⟩ : BufTy).Contents (Elt F) → (⟨S1000000x64, .f32⟩ : BufTy).Contents (Elt F)),
    StableHlo.binary main_v22 main_v24 main_v25 (addf : (⟨S1000000x64, .f32⟩ : BufTy).Contents (Elt F) → (⟨S1000000x64, .f32⟩ : BufTy).Contents (Elt F) → (⟨S1000000x64, .f32⟩ : BufTy).Contents (Elt F)),
    StableHlo.nullary main_cst_2 (constant S_ .f32 0x40490FDB#32),
    StableHlo.unary main_cst_2 main_v26 (broadcastInDim S1000000x64 ![] bcast_S_S1000000x64 : (⟨S_, .f32⟩ : BufTy).Contents (Elt F) → (⟨S1000000x64, .f32⟩ : BufTy).Contents (Elt F)),
    StableHlo.binary main_v26 main_v25 main_v27 (mulf : (⟨S1000000x64, .f32⟩ : BufTy).Contents (Elt F) → (⟨S1000000x64, .f32⟩ : BufTy).Contents (Elt F) → (⟨S1000000x64, .f32⟩ : BufTy).Contents (Elt F)),
    StableHlo.unary main_v27 main_v28 (Host.sin : (⟨S1000000x64, .f32⟩ : BufTy).Contents (Elt F) → (⟨S1000000x64, .f32⟩ : BufTy).Contents (Elt F)),
    StableHlo.binary main_v28 main_arg3 main_v29 ((fun l r => Host.dotGeneral dot_S1000000x64_S64x128_S1000000x128_1_0_0_1_n_n none l r) : (⟨S1000000x64, .f32⟩ : BufTy).Contents (Elt F) → (⟨S64x128, .f32⟩ : BufTy).Contents (Elt F) → (⟨S1000000x128, .f32⟩ : BufTy).Contents (Elt F)),
    StableHlo.unary main_arg4 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S1000000x128 ![0, 1] bcast_S1x128_S1000000x128_0_1 : (⟨S1x128, .f32⟩ : BufTy).Contents (Elt F) → (⟨S1000000x128, .f32⟩ : BufTy).Contents (Elt F)),
    StableHlo.binary main_v29 main_v31 main_v32 (addf : (⟨S1000000x128, .f32⟩ : BufTy).Contents (Elt F) → (⟨S1000000x128, .f32⟩ : BufTy).Contents (Elt F) → (⟨S1000000x128, .f32⟩ : BufTy).Contents (Elt F)),
    StableHlo.nullary main_cst_3 (constant S_ .f32 0x40490FDB#32),
    StableHlo.unary main_cst_3 main_v33 (broadcastInDim S1000000x128 ![] bcast_S_S1000000x128 : (⟨S_, .f32⟩ : BufTy).Contents (Elt F) → (⟨S1000000x128, .f32⟩ : BufTy).Contents (Elt F)),
    StableHlo.binary main_v33 main_v32 main_v34 (mulf : (⟨S1000000x128, .f32⟩ : BufTy).Contents (Elt F) → (⟨S1000000x128, .f32⟩ : BufTy).Contents (Elt F) → (⟨S1000000x128, .f32⟩ : BufTy).Contents (Elt F)),
    StableHlo.unary main_v34 main_v35 (Host.sin : (⟨S1000000x128, .f32⟩ : BufTy).Contents (Elt F) → (⟨S1000000x128, .f32⟩ : BufTy).Contents (Elt F)),
    StableHlo.unary main_v35 main_v36 (Host.negf : (⟨S1000000x128, .f32⟩ : BufTy).Contents (Elt F) → (⟨S1000000x128, .f32⟩ : BufTy).Contents (Elt F)),
    StableHlo.binary main_v36 main_arg5 main_v37 ((fun l r => Host.dotGeneral dot_S1000000x128_S128x256_S1000000x256_1_0_0_1_n_n none l r) : (⟨S1000000x128, .f32⟩ : BufTy).Contents (Elt F) → (⟨S128x256, .f32⟩ : BufTy).Contents (Elt F) → (⟨S1000000x256, .f32⟩ : BufTy).Contents (Elt F)),
    StableHlo.unary main_arg6 main_v38 (broadcastInDim S1x256 ![1] bcast_S256_S1x256_1 : (⟨S256, .f32⟩ : BufTy).Contents (Elt F) → (⟨S1x256, .f32⟩ : BufTy).Contents (Elt F)),
    StableHlo.unary main_v38 main_v39 (broadcastInDim S1000000x256 ![0, 1] bcast_S1x256_S1000000x256_0_1 : (⟨S1x256, .f32⟩ : BufTy).Contents (Elt F) → (⟨S1000000x256, .f32⟩ : BufTy).Contents (Elt F)),
    StableHlo.binary main_v37 main_v39 main_v40 (addf : (⟨S1000000x256, .f32⟩ : BufTy).Contents (Elt F) → (⟨S1000000x256, .f32⟩ : BufTy).Contents (Elt F) → (⟨S1000000x256, .f32⟩ : BufTy).Contents (Elt F)),
    StableHlo.nullary main_cst_4 (constant S_ .f32 0x40490FDB#32),
    StableHlo.unary main_cst_4 main_v41 (broadcastInDim S1000000x256 ![] bcast_S_S1000000x256 : (⟨S_, .f32⟩ : BufTy).Contents (Elt F) → (⟨S1000000x256, .f32⟩ : BufTy).Contents (Elt F)),
    StableHlo.binary main_v41 main_v40 main_v42 (mulf : (⟨S1000000x256, .f32⟩ : BufTy).Contents (Elt F) → (⟨S1000000x256, .f32⟩ : BufTy).Contents (Elt F) → (⟨S1000000x256, .f32⟩ : BufTy).Contents (Elt F)),
    StableHlo.unary main_v42 main_v43 (Host.sin : (⟨S1000000x256, .f32⟩ : BufTy).Contents (Elt F) → (⟨S1000000x256, .f32⟩ : BufTy).Contents (Elt F)),
    StableHlo.binary main_v43 main_arg7 main_v44 ((fun l r => Host.dotGeneral dot_S1000000x256_S256x128_S1000000x128_1_0_0_1_n_n none l r) : (⟨S1000000x256, .f32⟩ : BufTy).Contents (Elt F) → (⟨S256x128, .f32⟩ : BufTy).Contents (Elt F) → (⟨S1000000x128, .f32⟩ : BufTy).Contents (Elt F)),
    StableHlo.unary main_arg8 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S1000000x128 ![0, 1] bcast_S1x128_S1000000x128_0_1 : (⟨S1x128, .f32⟩ : BufTy).Contents (Elt F) → (⟨S1000000x128, .f32⟩ : BufTy).Contents (Elt F)),
    StableHlo.binary main_v44 main_v46 main_v47 (addf : (⟨S1000000x128, .f32⟩ : BufTy).Contents (Elt F) → (⟨S1000000x128, .f32⟩ : BufTy).Contents (Elt F) → (⟨S1000000x128, .f32⟩ : BufTy).Contents (Elt F)),
    StableHlo.nullary main_cst_5 (constant S_ .f32 0x40490FDB#32),
    StableHlo.unary main_cst_5 main_v48 (broadcastInDim S1000000x128 ![] bcast_S_S1000000x128 : (⟨S_, .f32⟩ : BufTy).Contents (Elt F) → (⟨S1000000x128, .f32⟩ : BufTy).Contents (Elt F)),
    StableHlo.binary main_v48 main_v47 main_v49 (mulf : (⟨S1000000x128, .f32⟩ : BufTy).Contents (Elt F) → (⟨S1000000x128, .f32⟩ : BufTy).Contents (Elt F) → (⟨S1000000x128, .f32⟩ : BufTy).Contents (Elt F)),
    StableHlo.unary main_v49 main_v50 (Host.sin : (⟨S1000000x128, .f32⟩ : BufTy).Contents (Elt F) → (⟨S1000000x128, .f32⟩ : BufTy).Contents (Elt F)),
    StableHlo.unary main_v50 main_v51 (Host.negf : (⟨S1000000x128, .f32⟩ : BufTy).Contents (Elt F) → (⟨S1000000x128, .f32⟩ : BufTy).Contents (Elt F)),
    StableHlo.binary main_v51 main_arg9 main_v52 ((fun l r => Host.dotGeneral dot_S1000000x128_S128x64_S1000000x64_1_0_0_1_n_n none l r) : (⟨S1000000x128, .f32⟩ : BufTy).Contents (Elt F) → (⟨S128x64, .f32⟩ : BufTy).Contents (Elt F) → (⟨S1000000x64, .f32⟩ : BufTy).Contents (Elt F)),
    StableHlo.unary main_arg10 main_v53 (broadcastInDim S1x64 ![1] bcast_S64_S1x64_1 : (⟨S64, .f32⟩ : BufTy).Contents (Elt F) → (⟨S1x64, .f32⟩ : BufTy).Contents (Elt F)),
    StableHlo.unary main_v53 main_v54 (broadcastInDim S1000000x64 ![0, 1] bcast_S1x64_S1000000x64_0_1 : (⟨S1x64, .f32⟩ : BufTy).Contents (Elt F) → (⟨S1000000x64, .f32⟩ : BufTy).Contents (Elt F)),
    StableHlo.binary main_v52 main_v54 main_v55 (addf : (⟨S1000000x64, .f32⟩ : BufTy).Contents (Elt F) → (⟨S1000000x64, .f32⟩ : BufTy).Contents (Elt F) → (⟨S1000000x64, .f32⟩ : BufTy).Contents (Elt F)),
    StableHlo.nullary main_cst_6 (constant S_ .f32 0x40490FDB#32),
    StableHlo.unary main_cst_6 main_v56 (broadcastInDim S1000000x64 ![] bcast_S_S1000000x64 : (⟨S_, .f32⟩ : BufTy).Contents (Elt F) → (⟨S1000000x64, .f32⟩ : BufTy).Contents (Elt F)),
    StableHlo.binary main_v56 main_v55 main_v57 (mulf : (⟨S1000000x64, .f32⟩ : BufTy).Contents (Elt F) → (⟨S1000000x64, .f32⟩ : BufTy).Contents (Elt F) → (⟨S1000000x64, .f32⟩ : BufTy).Contents (Elt F)),
    StableHlo.unary main_v57 main_v58 (Host.sin : (⟨S1000000x64, .f32⟩ : BufTy).Contents (Elt F) → (⟨S1000000x64, .f32⟩ : BufTy).Contents (Elt F)),
    StableHlo.binary main_v58 main_arg11 main_v59 ((fun l r => Host.dotGeneral dot_S1000000x64_S64x1_S1000000x1_1_0_0_1_n_n none l r) : (⟨S1000000x64, .f32⟩ : BufTy).Contents (Elt F) → (⟨S64x1, .f32⟩ : BufTy).Contents (Elt F) → (⟨S1000000x1, .f32⟩ : BufTy).Contents (Elt F)),
    StableHlo.unary main_arg12 main_v60 (broadcastInDim S1x1 ![1] bcast_S1_S1x1_1 : (⟨S1, .f32⟩ : BufTy).Contents (Elt F) → (⟨S1x1, .f32⟩ : BufTy).Contents (Elt F)),
    StableHlo.unary main_v60 main_v61 (broadcastInDim S1000000x1 ![0, 1] bcast_S1x1_S1000000x1_0_1 : (⟨S1x1, .f32⟩ : BufTy).Contents (Elt F) → (⟨S1000000x1, .f32⟩ : BufTy).Contents (Elt F)),
    StableHlo.binary main_v59 main_v61 main_v62 (addf : (⟨S1000000x1, .f32⟩ : BufTy).Contents (Elt F) → (⟨S1000000x1, .f32⟩ : BufTy).Contents (Elt F) → (⟨S1000000x1, .f32⟩ : BufTy).Contents (Elt F)),
    StableHlo.binary main_v20 main_arg13 main_v63 ((fun l r => Host.dotGeneral dot_S1000000x1_S1x16_S1000000x16_1_0_0_1_n_n none l r) : (⟨S1000000x1, .f32⟩ : BufTy).Contents (Elt F) → (⟨S1x16, .f32⟩ : BufTy).Contents (Elt F) → (⟨S1000000x16, .f32⟩ : BufTy).Contents (Elt F)),
    StableHlo.unary main_arg14 main_v64 (broadcastInDim S1x16 ![1] bcast_S16_S1x16_1 : (⟨S16, .f32⟩ : BufTy).Contents (Elt F) → (⟨S1x16, .f32⟩ : BufTy).Contents (Elt F)),
    StableHlo.unary main_v64 main_v65 (broadcastInDim S1000000x16 ![0, 1] bcast_S1x16_S1000000x16_0_1 : (⟨S1x16, .f32⟩ : BufTy).Contents (Elt F) → (⟨S1000000x16, .f32⟩ : BufTy).Contents (Elt F)),
    StableHlo.binary main_v63 main_v65 main_v66 (addf : (⟨S1000000x16, .f32⟩ : BufTy).Contents (Elt F) → (⟨S1000000x16, .f32⟩ : BufTy).Contents (Elt F) → (⟨S1000000x16, .f32⟩ : BufTy).Contents (Elt F)),
    StableHlo.nullary main_cst_7 (constant S_ .f32 0x40490FDB#32),
    StableHlo.unary main_cst_7 main_v67 (broadcastInDim S1000000x16 ![] bcast_S_S1000000x16 : (⟨S_, .f32⟩ : BufTy).Contents (Elt F) → (⟨S1000000x16, .f32⟩ : BufTy).Contents (Elt F)),
    StableHlo.binary main_v67 main_v66 main_v68 (mulf : (⟨S1000000x16, .f32⟩ : BufTy).Contents (Elt F) → (⟨S1000000x16, .f32⟩ : BufTy).Contents (Elt F) → (⟨S1000000x16, .f32⟩ : BufTy).Contents (Elt F)),
    StableHlo.unary main_v68 main_v69 (Host.sin : (⟨S1000000x16, .f32⟩ : BufTy).Contents (Elt F) → (⟨S1000000x16, .f32⟩ : BufTy).Contents (Elt F)),
    StableHlo.binary main_v69 main_arg15 main_v70 ((fun l r => Host.dotGeneral dot_S1000000x16_S16x1_S1000000x1_1_0_0_1_n_n none l r) : (⟨S1000000x16, .f32⟩ : BufTy).Contents (Elt F) → (⟨S16x1, .f32⟩ : BufTy).Contents (Elt F) → (⟨S1000000x1, .f32⟩ : BufTy).Contents (Elt F)),
    StableHlo.unary main_arg16 main_v71 (broadcastInDim S1x1 ![1] bcast_S1_S1x1_1 : (⟨S1, .f32⟩ : BufTy).Contents (Elt F) → (⟨S1x1, .f32⟩ : BufTy).Contents (Elt F)),
    StableHlo.unary main_v71 main_v72 (broadcastInDim S1000000x1 ![0, 1] bcast_S1x1_S1000000x1_0_1 : (⟨S1x1, .f32⟩ : BufTy).Contents (Elt F) → (⟨S1000000x1, .f32⟩ : BufTy).Contents (Elt F)),
    StableHlo.binary main_v70 main_v72 main_v73 (addf : (⟨S1000000x1, .f32⟩ : BufTy).Contents (Elt F) → (⟨S1000000x1, .f32⟩ : BufTy).Contents (Elt F) → (⟨S1000000x1, .f32⟩ : BufTy).Contents (Elt F)),
    StableHlo.binary main_v73 main_v62 main_v74 (mulf : (⟨S1000000x1, .f32⟩ : BufTy).Contents (Elt F) → (⟨S1000000x1, .f32⟩ : BufTy).Contents (Elt F) → (⟨S1000000x1, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., binary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., binary_bufs_sub ..⟩

set_option maxRecDepth 8192 in
set_option maxHeartbeats 34000000 in
/-- On every device, for any float values, from any memory with zero counters: every weakly fair execution of the
    main function terminates with the result at the composed value of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v74) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v74).trans (by after_results_simp <;> rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp),
      (h c main_arg6).trans (by after_results_simp),
      (h c main_arg7).trans (by after_results_simp),
      (h c main_arg8).trans (by after_results_simp),
      (h c main_arg9).trans (by after_results_simp),
      (h c main_arg10).trans (by after_results_simp),
      (h c main_arg11).trans (by after_results_simp),
      (h c main_arg12).trans (by after_results_simp),
      (h c main_arg13).trans (by after_results_simp),
      (h c main_arg14).trans (by after_results_simp),
      (h c main_arg15).trans (by after_results_simp),
      (h c main_arg16).trans (by after_results_simp)⟩)
    (run_seq scopedRefs_eq scopedSems_eq defs main (fun _ => ops) main_eq (fun _ => ops_sub) m ρ)

end Cert.Wave.Ref

end
-- ==== Proof.RefValue.lean ====
/-
  The reference's value is the specification's function G of its arguments, and its run ends there.

  Row n of each hidden layer is the specification's layer on row n of the input, by induction along the chain of
  layers; the two branches' columns at (n, 0) are the specification's two scalars of row n, their product the
  row's result; an index of the [1000000, 1] result is (n, 0), so the composed value is G.
-/
import proofs.«120030_j10599979286805_2_alg».proof.Proof.RefStages
import proofs.«120030_j10599979286805_2_alg».proof.Proof.RefRun

noncomputable section

namespace Cert.Wave.Ref

open Cert.ReferenceIdeal Cert.ReferenceIdeal.Gen Idealize.ShloMosaic Idealize.ShloMosaic.ValueIdx Idealize.ShloMosaic.TcCoe Idealize.SL.Sem

/-- The first hidden layer at (n, q). -/
theorem hid1_apply (x : Arr Ideal S1000000x3) (W : Arr Ideal S12x64) (b : Arr Ideal S64) (n : Fin 1000000) (q : Fin 64) :
    hid1 x W b (ix2 n q) = Cert.Wave.act (Cert.Wave.lin (Cert.Wave.emb12 (fun c => x (ix2 n c))) W b q) := by
  unfold hid1
  rw [actv_apply]
  exact congrArg Cert.Wave.act (dense_apply _ rfl _ _ (feats x) W b n _ (feats_apply x n) q)

/-- The later hidden layers at (n, q), given row n of the layer below. -/
theorem hid2_apply (y : Arr Ideal S1000000x64) (W : Arr Ideal S64x128) (b : Arr Ideal S128) (n : Fin 1000000)
    (g : Fin 64 → EReal) (hy : ∀ k, y (ix2 n k) = g k) (q : Fin 128) :
    hid2 y W b (ix2 n q) = -(Cert.Wave.act (Cert.Wave.lin g W b q)) := by
  unfold hid2
  rw [hostNegf_apply, actv_apply]
  exact congrArg (fun z => -(Cert.Wave.act z)) (dense_apply _ rfl _ _ y W b n g hy q)
theorem hid3_apply (y : Arr Ideal S1000000x128) (W : Arr Ideal S128x256) (b : Arr Ideal S256) (n : Fin 1000000)
    (g : Fin 128 → EReal) (hy : ∀ k, y (ix2 n k) = g k) (q : Fin 256) :
    hid3 y W b (ix2 n q) = Cert.Wave.act (Cert.Wave.lin g W b q) := by
  unfold hid3
  rw [actv_apply]
  exact congrArg Cert.Wave.act (dense_apply _ rfl _ _ y W b n g hy q)
theorem hid4_apply (y : Arr Ideal S1000000x256) (W : Arr Ideal S256x128) (b : Arr Ideal S128) (n : Fin 1000000)
    (g : Fin 256 → EReal) (hy : ∀ k, y (ix2 n k) = g k) (q : Fin 128) :
    hid4 y W b (ix2 n q) = -(Cert.Wave.act (Cert.Wave.lin g W b q)) := by
  unfold hid4
  rw [hostNegf_apply, actv_apply]
  exact congrArg (fun z => -(Cert.Wave.act z)) (dense_apply _ rfl _ _ y W b n g hy q)
theorem hid5_apply (y : Arr Ideal S1000000x128) (W : Arr Ideal S128x64) (b : Arr Ideal S64) (n : Fin 1000000)
    (g : Fin 128 → EReal) (hy : ∀ k, y (ix2 n k) = g k) (q : Fin 64) :
    hid5 y W b (ix2 n q) = Cert.Wave.act (Cert.Wave.lin g W b q) := by
  unfold hid5
  rw [actv_apply]
  exact congrArg Cert.Wave.act (dense_apply _ rfl _ _ y W b n g hy q)

variable (P : Cert.Wave.Params) (x : Arr Ideal S1000000x3)

/-- The first branch's column at (n, 0) is the specification's first scalar of row n. -/
theorem xyCol_apply (n : Fin 1000000) :
    xyCol x P.W1 P.b1 P.W2 P.b2 P.W3 P.b3 P.W4 P.b4 P.W5 P.b5 P.W6 P.b6 (ix2 n (0 : Fin 1)) = Cert.Wave.xyOut P (fun c => x (ix2 n c)) := by
  unfold xyCol
  refine dense_apply _ rfl _ _ _ P.W6 P.b6 n (Cert.Wave.h5 P (fun c => x (ix2 n c))) (fun k => ?_) 0
  refine hid5_apply _ P.W5 P.b5 n (Cert.Wave.h4 P (fun c => x (ix2 n c))) (fun k => ?_) k
  refine hid4_apply _ P.W4 P.b4 n (Cert.Wave.h3 P (fun c => x (ix2 n c))) (fun k => ?_) k
  refine hid3_apply _ P.W3 P.b3 n (Cert.Wave.h2 P (fun c => x (ix2 n c))) (fun k => ?_) k
  refine hid2_apply _ P.W2 P.b2 n (Cert.Wave.h1 P (fun c => x (ix2 n c))) (fun k => ?_) k
  exact hid1_apply x P.W1 P.b1 n k

/-- The second branch's hidden layer at (n, q). -/
theorem tHid_apply (n : Fin 1000000) (q : Fin 16) :
    tHid x P.Wt1 P.bt1 (ix2 n q) = Cert.Wave.th P (fun c => x (ix2 n c)) q := by
  unfold tHid
  rw [actv_apply]
  refine congrArg Cert.Wave.act ?_
  refine (dense_apply _ rfl _ _ (col2 x) P.Wt1 P.bt1 n (fun _ => x (ix2 n 2)) (fun k => col2_apply x n k) q).trans ?_
  show (∑ k : Fin 1, x (ix2 n 2) * P.Wt1 (ix2 k q)) + P.bt1 (ix1 q) = x (ix2 n 2) * P.Wt1 (ix2 0 q) + P.bt1 (ix1 q)
  rw [Fin.sum_univ_one]

/-- The second branch's column at (n, 0) is the specification's second scalar of row n. -/
theorem tCol_apply (n : Fin 1000000) :
    tCol x P.Wt1 P.bt1 P.Wt2 P.bt2 (ix2 n (0 : Fin 1)) = Cert.Wave.tOut P (fun c => x (ix2 n c)) := by
  unfold tCol
  exact dense_apply _ rfl _ _ _ P.Wt2 P.bt2 n (Cert.Wave.th P (fun c => x (ix2 n c))) (fun k => tHid_apply P x n k) 0

/-- The composed value at (n, 0) is the specification's result of row n. -/
theorem refOut_apply (n : Fin 1000000) :
    refOut x P.W1 P.b1 P.W2 P.b2 P.W3 P.b3 P.W4 P.b4 P.W5 P.b5 P.W6 P.b6 P.Wt1 P.bt1 P.Wt2 P.bt2 (ix2 n (0 : Fin 1)) = Cert.Wave.rowOut P (fun c => x (ix2 n c)) := by
  unfold refOut Cert.Wave.rowOut
  rw [mulf_apply, tCol_apply, xyCol_apply]

/-- The composed value is G. -/
theorem refOut_eq_G : refOut x P.W1 P.b1 P.W2 P.b2 P.W3 P.b3 P.W4 P.b4 P.W5 P.b5 P.W6 P.b6 P.Wt1 P.bt1 P.Wt2 P.bt2 = Cert.Wave.G P x := by
  funext i
  have hi : i = ix2 (⟨(i 0).val, idx2_lt0 i⟩ : Fin 1000000) (0 : Fin 1) := by
    funext a
    match a with
    | ⟨0, _⟩ => rfl
    | ⟨1, _⟩ =>
      have h1 : (i 1).val < 1 := (i 1).isLt
      exact Fin.ext (show (i 1).val = 0 by omega)
  exact (congrArg (refOut x P.W1 P.b1 P.W2 P.b2 P.W3 P.b3 P.W4 P.b4 P.W5 P.b5 P.W6 P.b6 P.Wt1 P.bt1 P.Wt2 P.bt2) hi).trans (refOut_apply P x ⟨(i 0).val, idx2_lt0 i⟩)

/-- On every device, from any memory with zero counters, every weakly fair execution of the reference at the ideal
    instance terminates with the result at G of the arguments and the arguments unchanged. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v74) = Cert.Wave.G ⟨m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14), m ((c.tc : Thread nD τ).loc main_arg15), m ((c.tc : Thread nD τ).loc main_arg16)⟩ (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c).1.trans (refOut_eq_G ⟨m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14), m ((c.tc : Thread nD τ).loc main_arg15), m ((c.tc : Thread nD τ).loc main_arg16)⟩ (m ((c.tc : Thread nD τ).loc main_arg0))), (h c).2⟩)
    (run (F := Ideal) m ρ)

/-- The same run, keeping only that every argument is unchanged. -/
theorem run_args (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => (h c).2) (run_G m ρ)

end Cert.Wave.Ref

end
-- ==== Proof.lean ====
/-
  The five claims.

  Both idealized programs compute, for every row n of the [1000000, 3] input, the same scalar: the product of the
  time branch sin (π·(t·Wt1 + bt1))·Wt2 + bt2 and the six-layer sine network on the twelve Fourier features of
  (x, y) (Spec: rowOut).  The kernel does it on 82 blocks of 12288 rows of the zero-padded input, writes a
  [1, 1007616] row and the host cuts and re-lays it (KernelRun, over KernelBlocks, KernelHost and the body's
  arithmetic at a column, KernelRow); the reference does it on the whole arrays (RefValue, over its run RefRun).
  The two spellings differ only where the extended reals agree: the kernel's folded words 2π and 4π against the
  reference's (π·s)·2 and (π·s)·4 (doubling a binary float is exact; the product is commutative and associative),
  0 − y against −y, a product against a one-term contraction, and a lane sum against a contraction.  No finiteness
  of the inputs is used.  The three frames are the generated ones (the reference's is its run with the value
  dropped); nothing was rewritten by the idealization, so there is nothing to preserve.
-/
import proofs.«120030_j10599979286805_2_alg».proof.Defs
import proofs.«120030_j10599979286805_2_alg».proof.Proof.Gen.Kernel
import proofs.«120030_j10599979286805_2_alg».proof.Proof.Gen.Kernel.Frame
import proofs.«120030_j10599979286805_2_alg».proof.Proof.Gen.KernelIdeal
import proofs.«120030_j10599979286805_2_alg».proof.Proof.Gen.KernelIdeal.Frame
import proofs.«120030_j10599979286805_2_alg».proof.Proof.Gen.ReferenceIdeal
import proofs.«120030_j10599979286805_2_alg».proof.Proof.Gen.Pre_finite_inputs
import proofs.«120030_j10599979286805_2_alg».proof.Proof.KernelRun
import proofs.«120030_j10599979286805_2_alg».proof.Proof.KernelRow
import proofs.«120030_j10599979286805_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame: its run, the value dropped. -/
theorem frame_ri : Cert.frame_ReferenceIdeal := fun m ρ _ =>
  (θ_run Cert.ReferenceIdeal.defs _ _).mono (fun _ h c => (h c).2) (Cert.Wave.Ref.run_G m ρ)

theorem preserves : Cert.preserves_Kernel_KernelIdeal := trivial

/-- Both runs end at the specification's array of their own argument arrays, and the argument arrays agree. -/
theorem algebraic : Cert.algebraic_KernelIdeal_ReferenceIdeal := by
  intro m ρ m' ρ' _ hagree
  refine ⟨_, Cert.Wave.KernelRun.run_G m ρ Cert.Wave.KernelRow.pay_apply, ?_⟩
  refine (θ_run Cert.ReferenceIdeal.defs _ _).mono (fun _ h c => ⟨(h c).1.trans ?_, (h c).2⟩) (Cert.Wave.Ref.run_G m' ρ')
  obtain ⟨e0, e1, e2, e3, e4, e5, e6, e7, e8, e9, e10, e11, e12, e13, e14, e15, e16⟩ := hagree c
  rw [e0, e1, e2, e3, e4, e5, e6, e7, e8, e9, e10, e11, e12, e13, e14, e15, e16]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
